-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 8
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S10000x64, .f32⟩
  | .hbm, ⟨5, _⟩ => ⟨S10000x64, .f32⟩
  | .hbm, ⟨6, _⟩ => ⟨S10000x64, .f32⟩
  | .hbm, ⟨7, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S128x64, .f32⟩
  | .local _ .vmem, ⟨3, _⟩ => ⟨S10000x64, .f32⟩
  | .local _ .vmem, ⟨4, _⟩ => ⟨S400x10000, .f32⟩
  | .local _ .vmem, ⟨5, _⟩ => ⟨S400x10000, .f32⟩
  | .local _ .vmem, ⟨6, _⟩ => ⟨S10000x64, .f32⟩
  | .local _ .vmem, ⟨7, _⟩ => ⟨S400x64, .f32⟩
  | .local _ .vmem, ⟨8, _⟩ => ⟨S400x64, .f32⟩
  | .local _ .vmem, ⟨9, _⟩ => ⟨S400x10000, .f32⟩
  | .local _ .vmem, ⟨10, _⟩ => ⟨S400x10000, .f32⟩
  | .local _ .vmem, ⟨11, _⟩ => ⟨S10000x64, .f32⟩
  | .local _ .vmem, ⟨12, _⟩ => ⟨S400x64, .f32⟩
  | .local _ .vmem, ⟨13, _⟩ => ⟨S400x64, .f32⟩
  | .local _ .vmem, ⟨14, _⟩ => ⟨S400x64, .f32⟩
  | .local _ .vmem, ⟨15, _⟩ => ⟨S400x64, .f32⟩
  | .local _ .vmem, ⟨16, _⟩ => ⟨S10000x64, .f32⟩
  | .local _ .vmem, ⟨17, _⟩ => ⟨S400x10000, .f32⟩
  | .local _ .vmem, ⟨18, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x128_S10000x128_0_0 : ∀ a, (![0, 0] : Fin 2 → Nat) a + S10000x128.size a ≤ S10000x128.size a
  h_S10000x128 : 0 < S10000x128.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S400x64_S400x64_0_0 : ∀ a, (![0, 0] : Fin 2 → Nat) a + S400x64.size a ≤ S400x64.size a
  h_S400x64 : 0 < S400x64.numel
  shapeCasts_S400x64_S400x64 : S400x64.ShapeCasts S400x64
  dot_S128x128_S128x64_S128x64_1_0_0_1_n_n_wf : DotDims.WF S128x128 S128x64 S128x64 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S10000x64_S400x10000_1_1_0_0_n_n_wf : DotDims.WF S400x64 S10000x64 S400x10000 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x64.size a ≤ S10000x64.size a
  hwx1_2 : ∀ i : grid1.Coords, EltTy.bits .f32 = 32 ∨ (Rect.block (s := S10000x64) S400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x64.size a ≤ S10000x64.size a
  hwx3_0 : ∀ i : grid3.Coords, EltTy.bits .f32 = 32 ∨ (Rect.block (s := S10000x64) S400x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S10000x64_S400x10000_1_1_0_0_n_n : DotDims S400x64 S10000x64 S400x10000 where
  lhsContracting := [1]
  rhsContracting := [1]
  lhsNonContracting := [0]
  rhsNonContracting := [0]
  lhsBatch := []
  rhsBatch := []
  wf := dot_S400x64_S10000x64_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_v0) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S10000x64 : Shape := ⟨2, ![10000, 64]⟩
abbrev S64x10000 : Shape := ⟨2, ![64, 10000]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S10000x128, .f32⟩
  | .hbm, ⟨5, _⟩ => ⟨S10000x128, .f32⟩
  | .hbm, ⟨6, _⟩ => ⟨S10000x64, .f32⟩
  | .hbm, ⟨7, _⟩ => ⟨S10000x64, .f32⟩
  | .hbm, ⟨8, _⟩ => ⟨S64x10000, .f32⟩
  | .hbm, ⟨9, _⟩ => ⟨S10000x10000, .f32⟩
  | .hbm, ⟨10, _⟩ => ⟨S10000x10000, .f32⟩
  | .hbm, ⟨11, _⟩ => ⟨S10000x10000, .f32⟩
  | .hbm, ⟨12, _⟩ => ⟨S_, .f32⟩
  | .hbm, ⟨13, _⟩ => ⟨S10000x10000, .f32⟩
  | .hbm, ⟨14, _⟩ => ⟨S10000x10000, .f32⟩
  | .hbm, ⟨15, _⟩ => ⟨S_, .f32⟩
  | .hbm, ⟨16, _⟩ => ⟨S10000x10000, .f32⟩
  | .hbm, ⟨17, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S10000x64_S64x10000_1_0 : S10000x64.Transposes [1, 0] S64x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KRegion0.lean ====
/-
  Region 0, entered at buffer contents V: one point; the body multiplies the two weight blocks, then the feature block by
  that product, and stores the result whole. What each window's staging buffer holds after the body, the body's triple,
  and the pipeline's proof data with its body obligation.
-/
import proofs.«121453_g80814104642078_cont_9to1_m_63_4_alg».proof.Proof.Gen.Kernel.Launch
import proofs.«121453_g80814104642078_cont_9to1_m_63_4_alg».proof.Proof.Gen.Kernel.Skeleton
import proofs.«121453_g80814104642078_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether or not it was fetched there
    (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether or not it was fetched there
    (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S128x64 := Rect.unit (s := S128x64) ![0, 0] S128x64.size inb_S128x64_S128x64_0_0
abbrev r0_3 : Rect S10000x64 := Rect.unit (s := S10000x64) ![0, 0] S10000x64.size inb_S10000x64_S10000x64_0_0

/-- The output window's staging buffer after the body, from the input windows' blocks: its one store. -/
def out0_3 (x0 : Vec F S10000x128 .f32) (x1 : Vec F S128x128 .f32) (x2 : Vec F S128x64 .f32) : Vec F S10000x64 .f32 :=
  View.canon [⟨r0_3, k0_pay1 (View.ld x1 r0_1) (View.ld x2 r0_2) (View.ld x0 r0_0)⟩]

/-- The store covers the buffer. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

set_option maxHeartbeats 1000000 in
/-- The body on whole staging memrefs, the inputs' at contents x and the output's at anything, runs to the continuation
    holding the inputs' as they were and the output's at out0_3 of the inputs'. -/
theorem sound_kernel0 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x128 .f32) (x2 : Vec F S128x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__y_kernel arg0 harg0 arg1 harg1 arg2 harg2 arg3 harg3) K := by
  simp only [cc0__y_kernel_eq_skeleton]; unfold cc0__y_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core c: the arrays as the region finds them; after the body at point t each
    input's buffer at its block and the output's at out0_3 of the input blocks; the invariant keeps the scoped
    rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1, entered at buffer contents V: 25 points, point t multiplying the t-th block of 400 adjacency rows by the
  whole 10000 x 64 operand and storing the 400 x 64 block of the result. What each window's staging buffer holds after the
  body, the body's triple, and the pipeline's proof data with its body obligation.
-/
import proofs.«121453_g80814104642078_cont_9to1_m_63_4_alg».proof.Proof.Gen.Kernel.Launch
import proofs.«121453_g80814104642078_cont_9to1_m_63_4_alg».proof.Proof.Gen.Kernel.Skeleton
import proofs.«121453_g80814104642078_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether or not it was fetched there
    (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S400x64 := Rect.unit (s := S400x64) ![0, 0] S400x64.size inb_S400x64_S400x64_0_0

/-- The output window's staging buffer after the body, from the input windows' blocks: its one store. -/
def out1_2 (x0 : Vec F S400x10000 .f32) (x1 : Vec F S10000x64 .f32) : Vec F S400x64 .f32 :=
  View.canon [⟨r1_2, k1_pay1 (View.ld x0 r1_0) (View.ld x1 r1_1)⟩]

/-- The store covers the buffer. -/
theorem cover1_2 (p0 : Vec F S400x64 .f32) (y : S400x64.Idx) :
    ∃ pc ∈ ([⟨r1_2, p0⟩] : List (View.Piece (Elt F) S400x64 .f32)), y ∈ pc.1.set :=
  View.cover_of_tiled [⟨r1_2, p0⟩] S400x64.size (by rfl) y

set_option maxHeartbeats 1000000 in
/-- The body on whole staging memrefs, the inputs' at contents x and the output's at anything, runs to the continuation
    holding the inputs' as they were and the output's at out1_2 of the inputs'. -/
theorem sound_kernel1 (c : Dev nD) (E : Set ℕ) (i : grid1.Coords) (arg0 : Memref sig .tc .vmem S400x10000 .f32) (harg0 : arg0.IsWhole) (arg1 : Memref sig .tc .vmem S10000x64 .f32) (harg1 : arg1.IsWhole) (arg2 : Memref sig .tc .vmem S400x64 .f32) (harg2 : arg2.IsWhole)
    (x0 : Vec F S400x10000 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__spmm_kernel i arg0 harg0 arg1 harg1 arg2 harg2) K := by
  simp only [cc1__spmm_kernel_eq_skeleton]; unfold cc1__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core c: the arrays as the region finds them; after the body at point t each
    input's buffer at its block and the output's at out1_2 of the input blocks; the invariant keeps the scoped
    rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  Region 2, entered at buffer contents V: 25 points, point t multiplying the t-th block of 400 adjacency rows by the
  whole 10000 x 64 operand and storing the 400 x 64 block of the result. What each window's staging buffer holds after the
  body, the body's triple, and the pipeline's proof data with its body obligation.
-/
import proofs.«121453_g80814104642078_cont_9to1_m_63_4_alg».proof.Proof.Gen.Kernel.Launch
import proofs.«121453_g80814104642078_cont_9to1_m_63_4_alg».proof.Proof.Gen.Kernel.Skeleton
import proofs.«121453_g80814104642078_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched there
    (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, whether or not it was fetched there
    (an unfetched window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S400x64 := Rect.unit (s := S400x64) ![0, 0] S400x64.size inb_S400x64_S400x64_0_0

/-- The output window's staging buffer after the body, from the input windows' blocks: its one store. -/
def out2_2 (x0 : Vec F S400x10000 .f32) (x1 : Vec F S10000x64 .f32) : Vec F S400x64 .f32 :=
  View.canon [⟨r2_2, k2_pay1 (View.ld x0 r2_0) (View.ld x1 r2_1)⟩]

/-- The store covers the buffer. -/
theorem cover2_2 (p0 : Vec F S400x64 .f32) (y : S400x64.Idx) :
    ∃ pc ∈ ([⟨r2_2, p0⟩] : List (View.Piece (Elt F) S400x64 .f32)), y ∈ pc.1.set :=
  View.cover_of_tiled [⟨r2_2, p0⟩] S400x64.size (by rfl) y

set_option maxHeartbeats 1000000 in
/-- The body on whole staging memrefs, the inputs' at contents x and the output's at anything, runs to the continuation
    holding the inputs' as they were and the output's at out2_2 of the inputs'. -/
theorem sound_kernel2 (c : Dev nD) (E : Set ℕ) (i : grid2.Coords) (arg0 : Memref sig .tc .vmem S400x10000 .f32) (harg0 : arg0.IsWhole) (arg1 : Memref sig .tc .vmem S10000x64 .f32) (harg1 : arg1.IsWhole) (arg2 : Memref sig .tc .vmem S400x64 .f32) (harg2 : arg2.IsWhole)
    (x0 : Vec F S400x10000 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__spmm_kernel i arg0 harg0 arg1 harg1 arg2 harg2) K := by
  simp only [cc2__spmm_kernel_eq_skeleton]; unfold cc2__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: the arrays as the region finds them; after the body at point t each
    input's buffer at its block and the output's at out2_2 of the input blocks; the invariant keeps the scoped
    rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/-
  Region 3, entered at buffer contents V: 25 points, point t taking the t-th block of 400 rows of the encoding and the
  whole encoding (two windows on ONE array, each holding it at half the share), and storing the 400 x 10000 block of the
  decoded matrix. What each window's staging buffer holds after the body, the body's triple, and the pipeline's proof
  data with its body obligation.
-/
import proofs.«121453_g80814104642078_cont_9to1_m_63_4_alg».proof.Proof.Gen.Kernel.Launch
import proofs.«121453_g80814104642078_cont_9to1_m_63_4_alg».proof.Proof.Gen.Kernel.Skeleton
import proofs.«121453_g80814104642078_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether or not it was fetched there
    (an unfetched window's block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, whether or not it was fetched there
    (an unfetched window's block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S400x64 := Rect.unit (s := S400x64) ![0, 0] S400x64.size inb_S400x64_S400x64_0_0
abbrev r3_1 : Rect S10000x64 := Rect.unit (s := S10000x64) ![0, 0] S10000x64.size inb_S10000x64_S10000x64_0_0
abbrev r3_2 : Rect S400x10000 := Rect.unit (s := S400x10000) ![0, 0] S400x10000.size inb_S400x10000_S400x10000_0_0

/-- The output window's staging buffer after the body, from the input windows' blocks: its one store. -/
def out3_2 (x0 : Vec F S400x64 .f32) (x1 : Vec F S10000x64 .f32) : Vec F S400x10000 .f32 :=
  View.canon [⟨r3_2, k3_pay1 (View.ld x0 r3_0) (View.ld x1 r3_1)⟩]

/-- The store covers the buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body on whole staging memrefs, the inputs' at contents x and the output's at anything, runs to the continuation
    holding the inputs' as they were and the output's at out3_2 of the inputs'. -/
theorem sound_kernel3 (c : Dev nD) (E : Set ℕ) (i : grid3.Coords) (arg0 : Memref sig .tc .vmem S400x64 .f32) (harg0 : arg0.IsWhole) (arg1 : Memref sig .tc .vmem S10000x64 .f32) (harg1 : arg1.IsWhole) (arg2 : Memref sig .tc .vmem S400x10000 .f32) (harg2 : arg2.IsWhole)
    (x0 : Vec F S400x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__decoder_kernel i arg0 harg0 arg1 harg1 arg2 harg2) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core c: the arrays as the region finds them; after the body at point t each
    input's buffer at its block and the output's at out3_2 of the input blocks; the invariant keeps the scoped
    rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/-
  The program's run: four kernel regions one after the other, no host operation between them.
  The contents of every unscoped buffer at each boundary are a fold from the launch memory: a region leaves its input
  arrays as it found them and its output array at what its write-backs leave, every other buffer untouched. Region 3
  reads ONE array (the encoding) through two windows: at its entry that array's buffer is split into two half shares, one
  per window, and at its exit the halves are joined again. The run then says: every weakly fair execution terminates,
  nothing faulting, with the two result arrays at the fold's last contents and the four arguments as launched.
-/
import proofs.«121453_g80814104642078_cont_9to1_m_63_4_alg».proof.Proof.KRegion0
import proofs.«121453_g80814104642078_cont_9to1_m_63_4_alg».proof.Proof.KRegion1
import proofs.«121453_g80814104642078_cont_9to1_m_63_4_alg».proof.Proof.KRegion2
import proofs.«121453_g80814104642078_cont_9to1_m_63_4_alg».proof.Proof.KRegion3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what region 0 is entered at). -/
abbrev VA : (c : Dev nD) → (b : Ref sig .tc) → Buf (Elt F) ((c : Thread nD τ).loc b) := fun c b => W0 m ρ c b

/-- At region 0's exit: its arrays at what the pipeline leaves (the inputs as entered, the output's write-backs folded),
    every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- At region 1's exit: its arrays at what the pipeline leaves (the inputs as entered, the output's write-backs folded),
    every other buffer as entered. -/
def W2 (c : Dev nD) : Valuation τ sig (Elt F) :=
  Pipeline.withArrays spec1 c (W1 m ρ c) fun w => (dat1 (VB m ρ) c).arrAt w cfg1.N
theorem W2_arr (c : Dev nD) (w : Fin cfg1.W) :
    W2 m ρ c (Proc.devRef .tc (Pipeline.arrRef spec1 w)) = (dat1 (VB m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev VC : (c : Dev nD) → (b : Ref sig .tc) → Buf (Elt F) ((c : Thread nD τ).loc b) := fun c b => W2 m ρ c b
theorem hF1 (c : Dev nD) (w : Fin cfg1.W) : (dat1 (VB m ρ) c).arrAt w cfg1.N = VC m ρ c (Pipeline.arrRef spec1 w) :=
  (W2_arr m ρ c w).symm
theorem hrest1 (c : Dev nD) : ∀ b, b ∉ Finset.univ.image (Pipeline.arrRef spec1) → VC m ρ c b = VB m ρ c b :=
  fun b hb => W2_of_ne m ρ c b fun w e => hb (Finset.mem_image.mpr ⟨w, Finset.mem_univ _, e⟩)

/-- At region 2's exit: its arrays at what the pipeline leaves (the inputs as entered, the output's write-backs folded),
    every other buffer as entered. -/
def W3 (c : Dev nD) : Valuation τ sig (Elt F) :=
  Pipeline.withArrays spec2 c (W2 m ρ c) fun w => (dat2 (VC m ρ) c).arrAt w cfg2.N
theorem W3_arr (c : Dev nD) (w : Fin cfg2.W) :
    W3 m ρ c (Proc.devRef .tc (Pipeline.arrRef spec2 w)) = (dat2 (VC m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev VD : (c : Dev nD) → (b : Ref sig .tc) → Buf (Elt F) ((c : Thread nD τ).loc b) := fun c b => W3 m ρ c b
theorem hF2 (c : Dev nD) (w : Fin cfg2.W) : (dat2 (VC m ρ) c).arrAt w cfg2.N = VD m ρ c (Pipeline.arrRef spec2 w) :=
  (W3_arr m ρ c w).symm
theorem hrest2 (c : Dev nD) : ∀ b, b ∉ Finset.univ.image (Pipeline.arrRef spec2) → VD m ρ c b = VC m ρ c b :=
  fun b hb => W3_of_ne m ρ c b fun w e => hb (Finset.mem_image.mpr ⟨w, Finset.mem_univ _, e⟩)

/-- At region 3's exit: the decoded matrix's buffer at what the write-backs leave, every other buffer as entered (the
    encoding, read through two windows, included). -/
def W4 (c : Dev nD) : Valuation τ sig (Elt F) :=
  Function.update (W3 m ρ c) (Proc.devRef .tc main_v3) ((dat3 (VD m ρ) c).arrAt 2 cfg3.N)
abbrev VE : (c : Dev nD) → (b : Ref sig .tc) → Buf (Elt F) ((c : Thread nD τ).loc b) := fun c b => W4 m ρ c b
theorem W4_out (c : Dev nD) : W4 m ρ c (Proc.devRef .tc main_v3) = (dat3 (VD m ρ) c).arrAt 2 cfg3.N := by
  unfold W4; exact Function.update_self _ _ _
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _

/-! ## The arguments end as launched, and the results are the last two regions' outputs -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (VA m ρ) c).arrAt_in 1 rfl _).trans (A_eq0 (VA m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 2).trans (((dat0 (VA m ρ) c).arrAt_in 2 rfl _).trans (A_eq0 (VA m ρ) c 2))
    _ = m ((c : Thread nD τ).loc main_arg3) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (VB m ρ) c).arrAt_in 0 rfl _).trans (A_eq1 (VB m ρ) c 0))
    _ = W0 m ρ c (Proc.devRef .tc main_arg1) := W1_of_ne m ρ c main_arg1 (by decide)
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((dat2 (VC m ρ) c).arrAt_in 0 rfl _).trans (A_eq2 (VC m ρ) c 0))
    _ = m ((c : Thread nD τ).loc main_arg1) := W2_main_arg1 m ρ c
/-- The encoding's buffer ends at what region 2's write-backs leave. -/
theorem W4_main_v2 (c : Dev nD) : W4 m ρ c (Proc.devRef .tc main_v2) = (dat2 (VC m ρ) c).arrAt 2 cfg2.N :=
  (W4_of_ne m ρ c main_v2 (by decide)).trans (W3_arr m ρ c 2)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
  | ⟨2, _⟩ => fun c => dat2 (VC m ρ) c
  | ⟨3, _⟩ => fun c => dat3 (VD m ρ) c
abbrev 𝒱₀ : Variants := Variants.none
abbrev L : GSem nD τ sig → Finset Unit := fun _ => ∅
abbrev lv : GSem nD τ sig → Unit → ℕ := fun _ _ => 0
/-- What rides beside the buffers through every region: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W0, left at W1. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W1, left at W2. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VC m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W2, left at W3. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (VC m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VC m ρ c) (VD m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3: one array behind two windows -/

/-- The two distinct buffers behind region 3's three windows, one by one. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

/-- Region 3's arrays as its proof data holds them: the encoding's buffer at the left half for the row-block window and
    at the right half for the whole-array window, the decoded matrix's at the full share. -/
theorem arrays3_eq (c : Dev nD) (V : (c : Dev nD) → (b : Ref sig .tc) → Buf (Elt F) ((c : Thread nD τ).loc b))
    (G : (w : Fin cfg3.W) → Buf (Elt F) ((cfg3.win w).arr.view.loc (c : Thread nD τ))) :
    ((dat3 V c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Dat.arrays
  rw [bigSep_W3, (arr_whole3 0).set_eq_univ, (arr_whole3 2).set_eq_univ]
  rfl

/-- ENTRY of region 3: the unscoped buffers at the entry contents are region 3's arrays — the encoding's buffer split into
    its two half shares, one per window that reads it, the decoded matrix's buffer whole — and the unscoped rest. -/
theorem entry3 (c : Dev nD) :
    (StableHlo.held (c : Thread nD τ) (Pipeline.ucRefs τ sig) (W3 m ρ c) : sProp 𝕄)
      ⊢ iprop((dat3 (VD m ρ) c).arrays ((dat3 (VD m ρ) c).arrAt · 0)
          ∗ Pipeline.unscopedRest (Ix := Unit) (Name := ℕ) (U := UR sig nD τ) (Lvl := ℕ) spec3 c (VD m ρ c)) := by
  have h1 : (unscopedBufs c (VD m ρ c) : sProp 𝕄)
      = iprop((Pipeline.arrBufs (Ix := Unit) (Name := ℕ) (U := UR sig nD τ) (Lvl := ℕ) spec3 c (VD m ρ c) : sProp 𝕄)
          ∗ Pipeline.unscopedRest (Ix := Unit) (Name := ℕ) (U := UR sig nD τ) (Lvl := ℕ) spec3 c (VD m ρ c)) :=
    Pipeline.unscopedBufs_split₀ (Pipeline.pin (pcfgs (F := F)) adm) 3 winFacts₀3.arr_unscoped c (VD m ρ c)
  rw [← Pipeline.unscopedBufs_held c (W3 m ρ c), h1, arrBufs3_eq, arrays3_eq]
  iintro ⟨⟨H2, H3⟩, Hrest⟩
  ihave H2' := (pointsTo_share (PosShare.mem_left_op_right fullShare)).1 $$ H2
  icases H2' with ⟨Hl, Hr⟩
  isplitr [Hrest]
  · isplitl [Hl]; · iexact Hl
    isplitl [Hr]; · iexact Hr
    iexact H3
  iexact Hrest

/-- EXIT of region 3: its arrays at their final contents — the two halves of the encoding's buffer, both still at the entry
    contents, joined again; the decoded matrix's buffer at what the write-backs leave — and the unscoped rest are the
    unscoped buffers at the exit contents. -/
theorem exit3 (c : Dev nD) :
    iprop((dat3 (VD m ρ) c).arrays ((dat3 (VD m ρ) c).arrAt · cfg3.N)
          ∗ Pipeline.unscopedRest (Ix := Unit) (Name := ℕ) (U := UR sig nD τ) (Lvl := ℕ) spec3 c (VD m ρ c))
      ⊢ (StableHlo.held (c : Thread nD τ) (Pipeline.ucRefs τ sig) (W4 m ρ c) : sProp 𝕄) := by
  have h1 : (unscopedBufs c (VE m ρ c) : sProp 𝕄)
      = iprop((Pipeline.arrBufs (Ix := Unit) (Name := ℕ) (U := UR sig nD τ) (Lvl := ℕ) spec3 c (VE m ρ c) : sProp 𝕄)
          ∗ Pipeline.unscopedRest (Ix := Unit) (Name := ℕ) (U := UR sig nD τ) (Lvl := ℕ) spec3 c (VE m ρ c)) :=
    Pipeline.unscopedBufs_split₀ (Pipeline.pin (pcfgs (F := F)) adm) 3 winFacts₀3.arr_unscoped c (VE m ρ c)
  have hrest : (Pipeline.unscopedRest (Ix := Unit) (Name := ℕ) (U := UR sig nD τ) (Lvl := ℕ) spec3 c (VE m ρ c) : sProp 𝕄)
      = Pipeline.unscopedRest (Ix := Unit) (Name := ℕ) (U := UR sig nD τ) (Lvl := ℕ) spec3 c (VD m ρ c) := by
    unfold Pipeline.unscopedRest
    exact bigSep_congr fun b hb => by
      have hne : b ≠ main_v3 := fun e => (Finset.mem_sdiff.mp hb).2 (Finset.mem_image.mpr ⟨2, Finset.mem_univ _, e.symm⟩)
      rw [show VE m ρ c b = VD m ρ c b from W4_of_ne m ρ c b hne]
  have e0 : (dat3 (VD m ρ) c).arrAt 0 cfg3.N = VE m ρ c main_v2 :=
    ((dat3 (VD m ρ) c).arrAt_in 0 rfl _).trans ((A_eq3 (VD m ρ) c 0).trans (W4_of_ne m ρ c main_v2 (by decide)).symm)
  have e1 : (dat3 (VD m ρ) c).arrAt 1 cfg3.N = VE m ρ c main_v2 :=
    ((dat3 (VD m ρ) c).arrAt_in 1 rfl _).trans ((A_eq3 (VD m ρ) c 1).trans (W4_of_ne m ρ c main_v2 (by decide)).symm)
  have e2 : (dat3 (VD m ρ) c).arrAt 2 cfg3.N = VE m ρ c main_v3 := (W4_out m ρ c).symm
  rw [← Pipeline.unscopedBufs_held c (W4 m ρ c), h1, hrest, arrBufs3_eq, arrays3_eq]
  dsimp only
  rw [e0, e1, e2]
  iintro ⟨⟨Hl, Hr, H3⟩, Hrest⟩
  ihave H2 := (pointsTo_share (PosShare.mem_left_op_right fullShare)).2 $$ [Hl Hr]
  · isplitl [Hl] <;> iassumption
  isplitr [Hrest]
  · isplitl [H2]; · iexact H2
    iexact H3
  iexact Hrest

set_option backward.isDefEq.respectTransparency.types false in
/-- Region 3 over the thread state: entered from every unscoped buffer at W3, left at W4 (what the launch reads at the end). -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (VD m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VD m ρ c)
  hentry c := by
    rw [Pipeline.ownSems0_none]
    iintro ⟨⟨Hub, Hp, HO⟩, -, -⟩
    ihave H := (entry3 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
          ∗ Pipeline.unscopedRest (Ix := Unit) (Name := ℕ) (U := UR sig nD τ) (Lvl := ℕ) spec3 c (VD m ρ c))
        ⊢ (StableHlo.held (c : Thread nD τ) (Pipeline.ucRefs τ sig) (W4 m ρ c) : sProp 𝕄) := exit3 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- THE RUN, at any instance: from any memory with zero counters every weakly fair execution of the program terminates,
    nothing faulting, the encoding's buffer at what region 2's write-backs leave, the decoded matrix's at what region 3's
    leave, and every argument array as launched. -/
theorem run : θ_run defs (onTc (τ := τ) (main (F := F))) ⟨m, fun _ => 0, ρ⟩ (fun r => ∀ c : Dev nD,
      r.2.mem ((c.tc : Thread nD τ).loc main_v2) = (dat2 (VC m ρ) c).arrAt 2 cfg2.N
      ∧ r.2.mem ((c.tc : Thread nD τ).loc main_v3) = (dat3 (VD m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v2 (by decide))).trans (W4_main_v2 m ρ c),
       (h c _ (mem_uc main_v3 (by decide))).trans (W4_out m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Kernel.Hand

end
-- ==== Proof.KIRegion0.lean ====
/-
  Region 0, entered at buffer contents V: one point; the body multiplies the two weight blocks, then the feature block by
  that product, and stores the result whole. What each window's staging buffer holds after the body, the body's triple,
  and the pipeline's proof data with its body obligation.
-/
import proofs.«121453_g80814104642078_cont_9to1_m_63_4_alg».proof.Proof.Gen.KernelIdeal.Launch
import proofs.«121453_g80814104642078_cont_9to1_m_63_4_alg».proof.Proof.Gen.KernelIdeal.Skeleton
import proofs.«121453_g80814104642078_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (an unfetched window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether or not it was fetched there
    (an unfetched window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether or not it was fetched there
    (an unfetched window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S128x64 := Rect.unit (s := S128x64) ![0, 0] S128x64.size inb_S128x64_S128x64_0_0
abbrev r0_3 : Rect S10000x64 := Rect.unit (s := S10000x64) ![0, 0] S10000x64.size inb_S10000x64_S10000x64_0_0

/-- The output window's staging buffer after the body, from the input windows' blocks: its one store. -/
def out0_3 (x0 : Vec F S10000x128 .f32) (x1 : Vec F S128x128 .f32) (x2 : Vec F S128x64 .f32) : Vec F S10000x64 .f32 :=
  View.canon [⟨r0_3, k0_pay1 (View.ld x1 r0_1) (View.ld x2 r0_2) (View.ld x0 r0_0)⟩]

/-- The store covers the buffer. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

set_option maxHeartbeats 1000000 in
/-- The body on whole staging memrefs, the inputs' at contents x and the output's at anything, runs to the continuation
    holding the inputs' as they were and the output's at out0_3 of the inputs'. -/
theorem sound_kernel0 (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x128 .f32) (x2 : Vec F S128x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__y_kernel arg0 harg0 arg1 harg1 arg2 harg2 arg3 harg3) K := by
  simp only [cc0__y_kernel_eq_skeleton]; unfold cc0__y_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core c: the arrays as the region finds them; after the body at point t each
    input's buffer at its block and the output's at out0_3 of the input blocks; the invariant keeps the scoped
    rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  Region 1, entered at buffer contents V: 25 points, point t multiplying the t-th block of 400 adjacency rows by the
  whole 10000 x 64 operand and storing the 400 x 64 block of the result. What each window's staging buffer holds after the
  body, the body's triple, and the pipeline's proof data with its body obligation.
-/
import proofs.«121453_g80814104642078_cont_9to1_m_63_4_alg».proof.Proof.Gen.KernelIdeal.Launch
import proofs.«121453_g80814104642078_cont_9to1_m_63_4_alg».proof.Proof.Gen.KernelIdeal.Skeleton
import proofs.«121453_g80814104642078_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether or not it was fetched there
    (an unfetched window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S400x64 := Rect.unit (s := S400x64) ![0, 0] S400x64.size inb_S400x64_S400x64_0_0

/-- The output window's staging buffer after the body, from the input windows' blocks: its one store. -/
def out1_2 (x0 : Vec F S400x10000 .f32) (x1 : Vec F S10000x64 .f32) : Vec F S400x64 .f32 :=
  View.canon [⟨r1_2, k1_pay1 (View.ld x0 r1_0) (View.ld x1 r1_1)⟩]

/-- The store covers the buffer. -/
theorem cover1_2 (p0 : Vec F S400x64 .f32) (y : S400x64.Idx) :
    ∃ pc ∈ ([⟨r1_2, p0⟩] : List (View.Piece (Elt F) S400x64 .f32)), y ∈ pc.1.set :=
  View.cover_of_tiled [⟨r1_2, p0⟩] S400x64.size (by rfl) y

set_option maxHeartbeats 1000000 in
/-- The body on whole staging memrefs, the inputs' at contents x and the output's at anything, runs to the continuation
    holding the inputs' as they were and the output's at out1_2 of the inputs'. -/
theorem sound_kernel1 (c : Dev nD) (E : Set ℕ) (i : grid1.Coords) (arg0 : Memref sig .tc .vmem S400x10000 .f32) (harg0 : arg0.IsWhole) (arg1 : Memref sig .tc .vmem S10000x64 .f32) (harg1 : arg1.IsWhole) (arg2 : Memref sig .tc .vmem S400x64 .f32) (harg2 : arg2.IsWhole)
    (x0 : Vec F S400x10000 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__spmm_kernel i arg0 harg0 arg1 harg1 arg2 harg2) K := by
  simp only [cc1__spmm_kernel_eq_skeleton]; unfold cc1__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core c: the arrays as the region finds them; after the body at point t each
    input's buffer at its block and the output's at out1_2 of the input blocks; the invariant keeps the scoped
    rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  Region 2, entered at buffer contents V: 25 points, point t multiplying the t-th block of 400 adjacency rows by the
  whole 10000 x 64 operand and storing the 400 x 64 block of the result. What each window's staging buffer holds after the
  body, the body's triple, and the pipeline's proof data with its body obligation.
-/
import proofs.«121453_g80814104642078_cont_9to1_m_63_4_alg».proof.Proof.Gen.KernelIdeal.Launch
import proofs.«121453_g80814104642078_cont_9to1_m_63_4_alg».proof.Proof.Gen.KernelIdeal.Skeleton
import proofs.«121453_g80814104642078_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched there
    (an unfetched window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, whether or not it was fetched there
    (an unfetched window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S400x64 := Rect.unit (s := S400x64) ![0, 0] S400x64.size inb_S400x64_S400x64_0_0

/-- The output window's staging buffer after the body, from the input windows' blocks: its one store. -/
def out2_2 (x0 : Vec F S400x10000 .f32) (x1 : Vec F S10000x64 .f32) : Vec F S400x64 .f32 :=
  View.canon [⟨r2_2, k2_pay1 (View.ld x0 r2_0) (View.ld x1 r2_1)⟩]

/-- The store covers the buffer. -/
theorem cover2_2 (p0 : Vec F S400x64 .f32) (y : S400x64.Idx) :
    ∃ pc ∈ ([⟨r2_2, p0⟩] : List (View.Piece (Elt F) S400x64 .f32)), y ∈ pc.1.set :=
  View.cover_of_tiled [⟨r2_2, p0⟩] S400x64.size (by rfl) y

set_option maxHeartbeats 1000000 in
/-- The body on whole staging memrefs, the inputs' at contents x and the output's at anything, runs to the continuation
    holding the inputs' as they were and the output's at out2_2 of the inputs'. -/
theorem sound_kernel2 (c : Dev nD) (E : Set ℕ) (i : grid2.Coords) (arg0 : Memref sig .tc .vmem S400x10000 .f32) (harg0 : arg0.IsWhole) (arg1 : Memref sig .tc .vmem S10000x64 .f32) (harg1 : arg1.IsWhole) (arg2 : Memref sig .tc .vmem S400x64 .f32) (harg2 : arg2.IsWhole)
    (x0 : Vec F S400x10000 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__spmm_kernel i arg0 harg0 arg1 harg1 arg2 harg2) K := by
  simp only [cc2__spmm_kernel_eq_skeleton]; unfold cc2__spmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: the arrays as the region finds them; after the body at point t each
    input's buffer at its block and the output's at out2_2 of the input blocks; the invariant keeps the scoped
    rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3.lean ====
/-
  Region 3, entered at buffer contents V: 25 points, point t taking the t-th block of 400 rows of the encoding and the
  whole encoding (two windows on ONE array, each holding it at half the share), and storing the 400 x 10000 block of the
  decoded matrix. What each window's staging buffer holds after the body, the body's triple, and the pipeline's proof
  data with its body obligation.
-/
import proofs.«121453_g80814104642078_cont_9to1_m_63_4_alg».proof.Proof.Gen.KernelIdeal.Launch
import proofs.«121453_g80814104642078_cont_9to1_m_63_4_alg».proof.Proof.Gen.KernelIdeal.Skeleton
import proofs.«121453_g80814104642078_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether or not it was fetched there
    (an unfetched window's block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, whether or not it was fetched there
    (an unfetched window's block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S400x64 := Rect.unit (s := S400x64) ![0, 0] S400x64.size inb_S400x64_S400x64_0_0
abbrev r3_1 : Rect S10000x64 := Rect.unit (s := S10000x64) ![0, 0] S10000x64.size inb_S10000x64_S10000x64_0_0
abbrev r3_2 : Rect S400x10000 := Rect.unit (s := S400x10000) ![0, 0] S400x10000.size inb_S400x10000_S400x10000_0_0

/-- The output window's staging buffer after the body, from the input windows' blocks: its one store. -/
def out3_2 (x0 : Vec F S400x64 .f32) (x1 : Vec F S10000x64 .f32) : Vec F S400x10000 .f32 :=
  View.canon [⟨r3_2, k3_pay1 (View.ld x0 r3_0) (View.ld x1 r3_1)⟩]

/-- The store covers the buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body on whole staging memrefs, the inputs' at contents x and the output's at anything, runs to the continuation
    holding the inputs' as they were and the output's at out3_2 of the inputs'. -/
theorem sound_kernel3 (c : Dev nD) (E : Set ℕ) (i : grid3.Coords) (arg0 : Memref sig .tc .vmem S400x64 .f32) (harg0 : arg0.IsWhole) (arg1 : Memref sig .tc .vmem S10000x64 .f32) (harg1 : arg1.IsWhole) (arg2 : Memref sig .tc .vmem S400x10000 .f32) (harg2 : arg2.IsWhole)
    (x0 : Vec F S400x64 .f32) (x1 : Vec F S10000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__decoder_kernel i arg0 harg0 arg1 harg1 arg2 harg2) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core c: the arrays as the region finds them; after the body at point t each
    input's buffer at its block and the output's at out3_2 of the input blocks; the invariant keeps the scoped
    rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/-
  The program's run: four kernel regions one after the other, no host operation between them.
  The contents of every unscoped buffer at each boundary are a fold from the launch memory: a region leaves its input
  arrays as it found them and its output array at what its write-backs leave, every other buffer untouched. Region 3
  reads ONE array (the encoding) through two windows: at its entry that array's buffer is split into two half shares, one
  per window, and at its exit the halves are joined again. The run then says: every weakly fair execution terminates,
  nothing faulting, with the two result arrays at the fold's last contents and the four arguments as launched.
-/
import proofs.«121453_g80814104642078_cont_9to1_m_63_4_alg».proof.Proof.KIRegion0
import proofs.«121453_g80814104642078_cont_9to1_m_63_4_alg».proof.Proof.KIRegion1
import proofs.«121453_g80814104642078_cont_9to1_m_63_4_alg».proof.Proof.KIRegion2
import proofs.«121453_g80814104642078_cont_9to1_m_63_4_alg».proof.Proof.KIRegion3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- The same read at the TensorCore's references (what region 0 is entered at). -/
abbrev VA : (c : Dev nD) → (b : Ref sig .tc) → Buf (Elt F) ((c : Thread nD τ).loc b) := fun c b => W0 m ρ c b

/-- At region 0's exit: its arrays at what the pipeline leaves (the inputs as entered, the output's write-backs folded),
    every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VB : (c : Dev nD) → (b : Ref sig .tc) → Buf (Elt F) ((c : Thread nD τ).loc b) := fun c b => W1 m ρ c b
theorem hF0 (c : Dev nD) (w : Fin cfg0.W) : (dat0 (VA m ρ) c).arrAt w cfg0.N = VB m ρ c (Pipeline.arrRef spec0 w) :=
  (W1_arr m ρ c w).symm
theorem hrest0 (c : Dev nD) : ∀ b, b ∉ Finset.univ.image (Pipeline.arrRef spec0) → VB m ρ c b = VA m ρ c b :=
  fun b hb => W1_of_ne m ρ c b fun w e => hb (Finset.mem_image.mpr ⟨w, Finset.mem_univ _, e⟩)

/-- At region 1's exit: its arrays at what the pipeline leaves (the inputs as entered, the output's write-backs folded),
    every other buffer as entered. -/
def W2 (c : Dev nD) : Valuation τ sig (Elt F) :=
  Pipeline.withArrays spec1 c (W1 m ρ c) fun w => (dat1 (VB m ρ) c).arrAt w cfg1.N
theorem W2_arr (c : Dev nD) (w : Fin cfg1.W) :
    W2 m ρ c (Proc.devRef .tc (Pipeline.arrRef spec1 w)) = (dat1 (VB m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev VC : (c : Dev nD) → (b : Ref sig .tc) → Buf (Elt F) ((c : Thread nD τ).loc b) := fun c b => W2 m ρ c b
theorem hF1 (c : Dev nD) (w : Fin cfg1.W) : (dat1 (VB m ρ) c).arrAt w cfg1.N = VC m ρ c (Pipeline.arrRef spec1 w) :=
  (W2_arr m ρ c w).symm
theorem hrest1 (c : Dev nD) : ∀ b, b ∉ Finset.univ.image (Pipeline.arrRef spec1) → VC m ρ c b = VB m ρ c b :=
  fun b hb => W2_of_ne m ρ c b fun w e => hb (Finset.mem_image.mpr ⟨w, Finset.mem_univ _, e⟩)

/-- At region 2's exit: its arrays at what the pipeline leaves (the inputs as entered, the output's write-backs folded),
    every other buffer as entered. -/
def W3 (c : Dev nD) : Valuation τ sig (Elt F) :=
  Pipeline.withArrays spec2 c (W2 m ρ c) fun w => (dat2 (VC m ρ) c).arrAt w cfg2.N
theorem W3_arr (c : Dev nD) (w : Fin cfg2.W) :
    W3 m ρ c (Proc.devRef .tc (Pipeline.arrRef spec2 w)) = (dat2 (VC m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev VD : (c : Dev nD) → (b : Ref sig .tc) → Buf (Elt F) ((c : Thread nD τ).loc b) := fun c b => W3 m ρ c b
theorem hF2 (c : Dev nD) (w : Fin cfg2.W) : (dat2 (VC m ρ) c).arrAt w cfg2.N = VD m ρ c (Pipeline.arrRef spec2 w) :=
  (W3_arr m ρ c w).symm
theorem hrest2 (c : Dev nD) : ∀ b, b ∉ Finset.univ.image (Pipeline.arrRef spec2) → VD m ρ c b = VC m ρ c b :=
  fun b hb => W3_of_ne m ρ c b fun w e => hb (Finset.mem_image.mpr ⟨w, Finset.mem_univ _, e⟩)

/-- At region 3's exit: the decoded matrix's buffer at what the write-backs leave, every other buffer as entered (the
    encoding, read through two windows, included). -/
def W4 (c : Dev nD) : Valuation τ sig (Elt F) :=
  Function.update (W3 m ρ c) (Proc.devRef .tc main_v3) ((dat3 (VD m ρ) c).arrAt 2 cfg3.N)
abbrev VE : (c : Dev nD) → (b : Ref sig .tc) → Buf (Elt F) ((c : Thread nD τ).loc b) := fun c b => W4 m ρ c b
theorem W4_out (c : Dev nD) : W4 m ρ c (Proc.devRef .tc main_v3) = (dat3 (VD m ρ) c).arrAt 2 cfg3.N := by
  unfold W4; exact Function.update_self _ _ _
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _

/-! ## The arguments end as launched, and the results are the last two regions' outputs -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (VA m ρ) c).arrAt_in 1 rfl _).trans (A_eq0 (VA m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 2).trans (((dat0 (VA m ρ) c).arrAt_in 2 rfl _).trans (A_eq0 (VA m ρ) c 2))
    _ = m ((c : Thread nD τ).loc main_arg3) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (VB m ρ) c).arrAt_in 0 rfl _).trans (A_eq1 (VB m ρ) c 0))
    _ = W0 m ρ c (Proc.devRef .tc main_arg1) := W1_of_ne m ρ c main_arg1 (by decide)
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((dat2 (VC m ρ) c).arrAt_in 0 rfl _).trans (A_eq2 (VC m ρ) c 0))
    _ = m ((c : Thread nD τ).loc main_arg1) := W2_main_arg1 m ρ c
/-- The encoding's buffer ends at what region 2's write-backs leave. -/
theorem W4_main_v2 (c : Dev nD) : W4 m ρ c (Proc.devRef .tc main_v2) = (dat2 (VC m ρ) c).arrAt 2 cfg2.N :=
  (W4_of_ne m ρ c main_v2 (by decide)).trans (W3_arr m ρ c 2)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
  | ⟨2, _⟩ => fun c => dat2 (VC m ρ) c
  | ⟨3, _⟩ => fun c => dat3 (VD m ρ) c
abbrev 𝒱₀ : Variants := Variants.none
abbrev L : GSem nD τ sig → Finset Unit := fun _ => ∅
abbrev lv : GSem nD τ sig → Unit → ℕ := fun _ _ => 0
/-- What rides beside the buffers through every region: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at W0, left at W1. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VB m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W1, left at W2. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VC m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W2, left at W3. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (VC m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VC m ρ c) (VD m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3: one array behind two windows -/

/-- The two distinct buffers behind region 3's three windows, one by one. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

/-- Region 3's arrays as its proof data holds them: the encoding's buffer at the left half for the row-block window and
    at the right half for the whole-array window, the decoded matrix's at the full share. -/
theorem arrays3_eq (c : Dev nD) (V : (c : Dev nD) → (b : Ref sig .tc) → Buf (Elt F) ((c : Thread nD τ).loc b))
    (G : (w : Fin cfg3.W) → Buf (Elt F) ((cfg3.win w).arr.view.loc (c : Thread nD τ))) :
    ((dat3 V c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Dat.arrays
  rw [bigSep_W3, (arr_whole3 0).set_eq_univ, (arr_whole3 2).set_eq_univ]
  rfl

/-- ENTRY of region 3: the unscoped buffers at the entry contents are region 3's arrays — the encoding's buffer split into
    its two half shares, one per window that reads it, the decoded matrix's buffer whole — and the unscoped rest. -/
theorem entry3 (c : Dev nD) :
    (StableHlo.held (c : Thread nD τ) (Pipeline.ucRefs τ sig) (W3 m ρ c) : sProp 𝕄)
      ⊢ iprop((dat3 (VD m ρ) c).arrays ((dat3 (VD m ρ) c).arrAt · 0)
          ∗ Pipeline.unscopedRest (Ix := Unit) (Name := ℕ) (U := UR sig nD τ) (Lvl := ℕ) spec3 c (VD m ρ c)) := by
  have h1 : (unscopedBufs c (VD m ρ c) : sProp 𝕄)
      = iprop((Pipeline.arrBufs (Ix := Unit) (Name := ℕ) (U := UR sig nD τ) (Lvl := ℕ) spec3 c (VD m ρ c) : sProp 𝕄)
          ∗ Pipeline.unscopedRest (Ix := Unit) (Name := ℕ) (U := UR sig nD τ) (Lvl := ℕ) spec3 c (VD m ρ c)) :=
    Pipeline.unscopedBufs_split₀ (Pipeline.pin (pcfgs (F := F)) adm) 3 winFacts₀3.arr_unscoped c (VD m ρ c)
  rw [← Pipeline.unscopedBufs_held c (W3 m ρ c), h1, arrBufs3_eq, arrays3_eq]
  iintro ⟨⟨H2, H3⟩, Hrest⟩
  ihave H2' := (pointsTo_share (PosShare.mem_left_op_right fullShare)).1 $$ H2
  icases H2' with ⟨Hl, Hr⟩
  isplitr [Hrest]
  · isplitl [Hl]; · iexact Hl
    isplitl [Hr]; · iexact Hr
    iexact H3
  iexact Hrest

/-- EXIT of region 3: its arrays at their final contents — the two halves of the encoding's buffer, both still at the entry
    contents, joined again; the decoded matrix's buffer at what the write-backs leave — and the unscoped rest are the
    unscoped buffers at the exit contents. -/
theorem exit3 (c : Dev nD) :
    iprop((dat3 (VD m ρ) c).arrays ((dat3 (VD m ρ) c).arrAt · cfg3.N)
          ∗ Pipeline.unscopedRest (Ix := Unit) (Name := ℕ) (U := UR sig nD τ) (Lvl := ℕ) spec3 c (VD m ρ c))
      ⊢ (StableHlo.held (c : Thread nD τ) (Pipeline.ucRefs τ sig) (W4 m ρ c) : sProp 𝕄) := by
  have h1 : (unscopedBufs c (VE m ρ c) : sProp 𝕄)
      = iprop((Pipeline.arrBufs (Ix := Unit) (Name := ℕ) (U := UR sig nD τ) (Lvl := ℕ) spec3 c (VE m ρ c) : sProp 𝕄)
          ∗ Pipeline.unscopedRest (Ix := Unit) (Name := ℕ) (U := UR sig nD τ) (Lvl := ℕ) spec3 c (VE m ρ c)) :=
    Pipeline.unscopedBufs_split₀ (Pipeline.pin (pcfgs (F := F)) adm) 3 winFacts₀3.arr_unscoped c (VE m ρ c)
  have hrest : (Pipeline.unscopedRest (Ix := Unit) (Name := ℕ) (U := UR sig nD τ) (Lvl := ℕ) spec3 c (VE m ρ c) : sProp 𝕄)
      = Pipeline.unscopedRest (Ix := Unit) (Name := ℕ) (U := UR sig nD τ) (Lvl := ℕ) spec3 c (VD m ρ c) := by
    unfold Pipeline.unscopedRest
    exact bigSep_congr fun b hb => by
      have hne : b ≠ main_v3 := fun e => (Finset.mem_sdiff.mp hb).2 (Finset.mem_image.mpr ⟨2, Finset.mem_univ _, e.symm⟩)
      rw [show VE m ρ c b = VD m ρ c b from W4_of_ne m ρ c b hne]
  have e0 : (dat3 (VD m ρ) c).arrAt 0 cfg3.N = VE m ρ c main_v2 :=
    ((dat3 (VD m ρ) c).arrAt_in 0 rfl _).trans ((A_eq3 (VD m ρ) c 0).trans (W4_of_ne m ρ c main_v2 (by decide)).symm)
  have e1 : (dat3 (VD m ρ) c).arrAt 1 cfg3.N = VE m ρ c main_v2 :=
    ((dat3 (VD m ρ) c).arrAt_in 1 rfl _).trans ((A_eq3 (VD m ρ) c 1).trans (W4_of_ne m ρ c main_v2 (by decide)).symm)
  have e2 : (dat3 (VD m ρ) c).arrAt 2 cfg3.N = VE m ρ c main_v3 := (W4_out m ρ c).symm
  rw [← Pipeline.unscopedBufs_held c (W4 m ρ c), h1, hrest, arrBufs3_eq, arrays3_eq]
  dsimp only
  rw [e0, e1, e2]
  iintro ⟨⟨Hl, Hr, H3⟩, Hrest⟩
  ihave H2 := (pointsTo_share (PosShare.mem_left_op_right fullShare)).2 $$ [Hl Hr]
  · isplitl [Hl] <;> iassumption
  isplitr [Hrest]
  · isplitl [H2]; · iexact H2
    iexact H3
  iexact Hrest

set_option backward.isDefEq.respectTransparency.types false in
/-- Region 3 over the thread state: entered from every unscoped buffer at W3, left at W4 (what the launch reads at the end). -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (VD m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VD m ρ c)
  hentry c := by
    rw [Pipeline.ownSems0_none]
    iintro ⟨⟨Hub, Hp, HO⟩, -, -⟩
    ihave H := (entry3 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
          ∗ Pipeline.unscopedRest (Ix := Unit) (Name := ℕ) (U := UR sig nD τ) (Lvl := ℕ) spec3 c (VD m ρ c))
        ⊢ (StableHlo.held (c : Thread nD τ) (Pipeline.ucRefs τ sig) (W4 m ρ c) : sProp 𝕄) := exit3 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- THE RUN, at any instance: from any memory with zero counters every weakly fair execution of the program terminates,
    nothing faulting, the encoding's buffer at what region 2's write-backs leave, the decoded matrix's at what region 3's
    leave, and every argument array as launched. -/
theorem run : θ_run defs (onTc (τ := τ) (main (F := F))) ⟨m, fun _ => 0, ρ⟩ (fun r => ∀ c : Dev nD,
      r.2.mem ((c.tc : Thread nD τ).loc main_v2) = (dat2 (VC m ρ) c).arrAt 2 cfg2.N
      ∧ r.2.mem ((c.tc : Thread nD τ).loc main_v3) = (dat3 (VD m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v2 (by decide))).trans (W4_main_v2 m ρ c),
       (h c _ (mem_uc main_v3 (by decide))).trans (W4_out m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Hand

end
-- ==== Proof.Spec.lean ====
/-
  The two results of a linear two-layer graph encoder with an inner-product decoder, as functions of the four
  argument arrays over the extended reals, index by index.

  With features X [N, 128], a dense adjacency A [N, N] and weights W₁ [128, 128], W₂ [128, 64] (N = 10000):
  the encoding is the matrix product A · (A · X · W₁) · W₂, which one program groups as
  A · (A · (X · (W₁ · W₂))) (encodingFolded) and the other as A · ((A · (X · W₁)) · W₂) (encodingLayered);
  for finite entries the two groupings agree, by associativity of the product of real matrices.
  The decoder is the logistic function of the Gram matrix Z = E · Eᵀ of an encoding E [N, 64], which one program
  writes ½ · (tanh (½ · z) + 1) (decoderTanh) and the other 1 / (1 + exp (−z)) (decoderLogistic); the two are one
  function of a real z.
-/
import Idealize.ShloMosaic.PureOps.Ideal
import Idealize.ShloMosaic.Lib.ValueIdx

noncomputable section

namespace Cert.GraphAutoencoder

open Idealize.ShloMosaic Idealize.ShloMosaic.ValueIdx

/-- A matrix of extended reals with a rows and b columns. -/
abbrev Mat (a b : Nat) : Type := (⟨2, ![a, b]⟩ : Shape).Idx → EReal

/-- The product of an [n, K] matrix with a [K, d] matrix: entry (r, c) is the sum over k of L (r, k) · R (k, c). -/
def prod {n K d : Nat} (L : Mat n K) (R : Mat K d) : Mat n d :=
  fun j => ∑ k : Fin K, L (ix2 (j 0) k) * R (ix2 k (j 1))

theorem prod_apply {n K d : Nat} (L : Mat n K) (R : Mat K d) (r : Fin n) (c : Fin d) :
    prod L R (ix2 r c) = ∑ k : Fin K, L (ix2 r k) * R (ix2 k c) := rfl

/-- The Gram matrix of the rows of an [n, d] matrix: entry (i, j) is the sum over c of E (i, c) · E (j, c). -/
def gram {n d : Nat} (E : Mat n d) : Mat n n :=
  fun j => ∑ c : Fin d, E (ix2 (j 0) c) * E (ix2 (j 1) c)

theorem gram_apply {n d : Nat} (E : Mat n d) (i j : Fin n) :
    gram E (ix2 i j) = ∑ c : Fin d, E (ix2 i c) * E (ix2 j c) := rfl

/-- A · (A · (X · (W₁ · W₂))): the weights multiplied first. -/
def encodingFolded (X : Mat 10000 128) (A : Mat 10000 10000) (W₁ : Mat 128 128) (W₂ : Mat 128 64) : Mat 10000 64 :=
  prod A (prod A (prod X (prod W₁ W₂)))

/-- A · ((A · (X · W₁)) · W₂): one layer after the other. -/
def encodingLayered (X : Mat 10000 128) (A : Mat 10000 10000) (W₁ : Mat 128 128) (W₂ : Mat 128 64) : Mat 10000 64 :=
  prod A (prod (prod A (prod X W₁)) W₂)

/-- The float32 words of one half and of one, at their exact values. -/
abbrev halfWord : EReal := Ideal.ofBits .f32 0x3F000000#32
abbrev oneWord : EReal := Ideal.ofBits .f32 0x3F800000#32

/-- ½ · (tanh (½ · z) + 1) at every entry z of the Gram matrix. -/
def decoderTanh {n d : Nat} (E : Mat n d) : Mat n n :=
  fun j => halfWord * (Ideal.tanh (halfWord * gram E j) + oneWord)

/-- 1 / (1 + exp (−z)) at every entry z of the Gram matrix. -/
def decoderLogistic {n d : Nat} (E : Mat n d) : Mat n n :=
  fun j => Ideal.div oneWord (oneWord + Ideal.exp (-(gram E j)))

end Cert.GraphAutoencoder

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibMatmulRowsByRows.lean ====
/-
  A matrix product whose two operands are both contracted over their LAST axis, read at an entry.

  A kernel that keeps a weight matrix in its natural [outputs, inputs] layout multiplies an [n, K] block by a
  [d, K] block "row against row": out[r, c] = Σ_k lhs[r, k] · rhs[c, k].  Into the zero accumulator, at the exact
  instance, that sum is all there is.
-/
import Idealize.ShloMosaic.PureOps.Ideal.Laws
import Idealize.ShloMosaic.Lib.ValueIdx

noncomputable section

namespace Cert.Lib.MatmulRowsByRows

open Idealize.ShloMosaic Idealize.ShloMosaic.ValueIdx

/-- A matrix product of an [n, K] operand with a [d, K] operand, both contracted over their last axis, into the
    zero accumulator, read at entry (r, c): the sum over the contracted axis of row r of the left operand times
    row c of the right.  The four hypotheses name the coordinates of the operands' indices at an output index and
    a contraction index (for a printed dimension record: two by unfolding the index maps on the free axes, two
    by the library's lhsIdx_val_of_single / rhsIdx_val_of_single on the contracted ones). -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.MatmulRowsByRows

end
-- ==== Proof.KIValue.lean ====
/-
  What the idealized kernel's two result arrays hold after the run, as functions of the argument arrays over the extended
  reals.

  Each region's body is read at an entry: a product into the zero accumulator is the sum over the contracted axis, and the
  last region's body applies ½ · (tanh (½ · z) + 1) to the product of a block of rows of the encoding with all rows of the
  encoding. Regions 1, 2 and 3 write their result 400 rows at a time: point t's block is rows 400·t … 400·t + 399 of ONE
  whole-array function of the region's input arrays, and the 25 blocks cover the array, so the array ends at that function.
  Chained through the four regions: the encoding is A · (A · (X · (W₁ · W₂))) and the decoded matrix is
  ½ · (tanh (½ · z) + 1) of the encoding's Gram matrix.
-/
import proofs.«121453_g80814104642078_cont_9to1_m_63_4_alg».proof.Proof.KIRun
import proofs.«121453_g80814104642078_cont_9to1_m_63_4_alg».proof.Proof.Spec
import proofs.«121453_g80814104642078_cont_9to1_m_63_4_alg».proof.Proof.LibSplitContraction
import proofs.«121453_g80814104642078_cont_9to1_m_63_4_alg».proof.Proof.LibMatmulRowsByRows
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GraphAutoencoder

/-! ## The four dimension records: which coordinate of each operand an output index and a contraction index give -/

theorem dW_l0 (i : S128x64.Idx) (q : dot_S128x128_S128x64_S128x64_1_0_0_1_n_n.contr.Idx) : (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch by decide), dif_pos (show (0 : Fin S128x128.rank) ∈ dot_S128x128_S128x64_S128x64_1_0_0_1_n_n.lhsNonContracting by decide)]
  rfl
theorem dW_l1 (i : S128x64.Idx) (q : dot_S128x128_S128x64_S128x64_1_0_0_1_n_n.contr.Idx) : (dot_S128x128_S128x64_S128x64_1_0_0_1_n_n.lhsIdx i q 1).val = (q ⟨0, by decide⟩).val :=
  dot_S128x128_S128x64_S128x64_1_0_0_1_n_n.lhsIdx_val_of_single rfl i q
theorem dW_r0 (i : S128x64.Idx) (q : dot_S128x128_S128x64_S128x64_1_0_0_1_n_n.contr.Idx) : (dot_S128x128_S128x64_S128x64_1_0_0_1_n_n.rhsIdx i q 0).val = (q ⟨0, by decide⟩).val :=
  dot_S128x128_S128x64_S128x64_1_0_0_1_n_n.rhsIdx_val_of_single rfl i q
theorem dW_r1 (i : S128x64.Idx) (q : dot_S128x128_S128x64_S128x64_1_0_0_1_n_n.contr.Idx) : (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch by decide), dif_pos (show (1 : Fin S128x64.rank) ∈ dot_S128x128_S128x64_S128x64_1_0_0_1_n_n.rhsNonContracting by decide)]
  rfl

theorem dX_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dX_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem dX_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem dX_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem dA_l0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem dA_l1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem dA_r0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem dA_r1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem dG_l0 (i : S400x10000.Idx) (q : dot_S400x64_S10000x64_S400x10000_1_1_0_0_n_n.contr.Idx) : (dot_S400x64_S10000x64_S400x10000_1_1_0_0_n_n.lhsIdx i q 0).val = (i 0).val := by
  unfold DotDims.lhsIdx
  rw [dif_neg (show ¬(0 : Fin S400x64.rank) ∈ dot_S400x64_S10000x64_S400x10000_1_1_0_0_n_n.lhsBatch by decide), dif_pos (show (0 : Fin S400x64.rank) ∈ dot_S400x64_S10000x64_S400x10000_1_1_0_0_n_n.lhsNonContracting by decide)]
  rfl
theorem dG_l1 (i : S400x10000.Idx) (q : dot_S400x64_S10000x64_S400x10000_1_1_0_0_n_n.contr.Idx) : (dot_S400x64_S10000x64_S400x10000_1_1_0_0_n_n.lhsIdx i q 1).val = (q ⟨0, by decide⟩).val :=
  dot_S400x64_S10000x64_S400x10000_1_1_0_0_n_n.lhsIdx_val_of_single rfl i q
theorem dG_r0 (i : S400x10000.Idx) (q : dot_S400x64_S10000x64_S400x10000_1_1_0_0_n_n.contr.Idx) : (dot_S400x64_S10000x64_S400x10000_1_1_0_0_n_n.rhsIdx i q 0).val = (i 1).val := by
  unfold DotDims.rhsIdx
  rw [dif_neg (show ¬(0 : Fin S10000x64.rank) ∈ dot_S400x64_S10000x64_S400x10000_1_1_0_0_n_n.rhsBatch by decide), dif_pos (show (0 : Fin S10000x64.rank) ∈ dot_S400x64_S10000x64_S400x10000_1_1_0_0_n_n.rhsNonContracting by decide)]
  rfl
theorem dG_r1 (i : S400x10000.Idx) (q : dot_S400x64_S10000x64_S400x10000_1_1_0_0_n_n.contr.Idx) : (dot_S400x64_S10000x64_S400x10000_1_1_0_0_n_n.rhsIdx i q 1).val = (q ⟨0, by decide⟩).val :=
  dot_S400x64_S10000x64_S400x10000_1_1_0_0_n_n.rhsIdx_val_of_single rfl i q

/-! ## The bodies' payloads at an entry -/

/-- Region 0's payload: the feature block times the product of the two weight blocks. -/
theorem pay0_eq (v0 : Vec Ideal S128x128 .f32) (v1 : Vec Ideal S128x64 .f32) (v3 : Vec Ideal S10000x128 .f32) :
    k0_pay1 (F := Ideal) v0 v1 v3 = prod (n := 10000) (K := 128) (d := 64) v3 (prod (n := 128) (K := 128) (d := 64) v0 v1) := by
  funext j
  obtain ⟨r, q, rfl⟩ : ∃ (r : Fin 10000) (q : Fin 64), j = ix2 r q := ⟨j 0, j 1, eq_ix2 j⟩
  unfold k0_pay1
  refine (Cert.Lib.SplitContraction.matmul_zero_at dot_S10000x128_S128x64_S10000x64_1_0_0_1_n_n rfl rfl dX_l0 dX_l1 dX_r0 dX_r1 none v3 _ r q).trans ?_
  rw [prod_apply]
  refine Finset.sum_congr rfl fun k _ => ?_
  refine congrArg (v3 (ix2 r k) * ·) ?_
  exact (Cert.Lib.SplitContraction.matmul_zero_at dot_S128x128_S128x64_S128x64_1_0_0_1_n_n rfl rfl dW_l0 dW_l1 dW_r0 dW_r1 none v0 v1 k q).trans (prod_apply _ _ k q).symm

/-- Region 1's payload at an entry: row r of the adjacency block against column q of the operand. -/
theorem pay1_apply (x0 : Vec Ideal S400x10000 .f32) (x1 : Vec Ideal S10000x64 .f32) (r : Fin 400) (q : Fin 64) :
    k1_pay1 (F := Ideal) x0 x1 (ix2 r q) = ∑ k : Fin 10000, x0 (ix2 r k) * x1 (ix2 k q) := by
  unfold k1_pay1
  refine (Cert.Lib.SplitContraction.matmul_zero_at dot_S400x10000_S10000x64_S400x64_1_0_0_1_n_n rfl rfl dA_l0 dA_l1 dA_r0 dA_r1 none x0 _ r q).trans ?_
  refine Finset.sum_congr rfl fun k _ => ?_
  exact congrArg (x0 (ix2 r k) * ·) (congrFun (shapeCast_self x1 _) _)

/-- Region 2's payload at an entry: the same product. -/
theorem pay2_apply (x0 : Vec Ideal S400x10000 .f32) (x1 : Vec Ideal S10000x64 .f32) (r : Fin 400) (q : Fin 64) :
    k2_pay1 (F := Ideal) x0 x1 (ix2 r q) = ∑ k : Fin 10000, x0 (ix2 r k) * x1 (ix2 k q) := by
  unfold k2_pay1
  refine (Cert.Lib.SplitContraction.matmul_zero_at dot_S400x10000_S10000x64_S400x64_1_0_0_1_n_n rfl rfl dA_l0 dA_l1 dA_r0 dA_r1 none x0 _ r q).trans ?_
  refine Finset.sum_congr rfl fun k _ => ?_
  exact congrArg (x0 (ix2 r k) * ·) (congrFun (shapeCast_self x1 _) _)

/-- Region 3's payload at an entry: ½ · (tanh (½ · z) + 1) with z row r of the block against row q of the whole encoding. -/
theorem pay3_apply (x0 : Vec Ideal S400x64 .f32) (x2 : Vec Ideal S10000x64 .f32) (r : Fin 400) (q : Fin 10000) :
    k3_pay1 (F := Ideal) x0 x2 (ix2 r q)
      = halfWord * (Ideal.tanh (halfWord * ∑ k : Fin 64, x0 (ix2 r k) * x2 (ix2 q k)) + oneWord) := by
  unfold k3_pay1
  refine (congrArg (fun z : EReal => halfWord * (Ideal.tanh (halfWord * z) + oneWord))
    (Cert.Lib.MatmulRowsByRows.matmul_zero_at dot_S400x64_S10000x64_S400x10000_1_1_0_0_n_n rfl rfl dG_l0 dG_l1 dG_r0 dG_r1 none
      (shapeCast S400x64 x0 shapeCasts_S400x64_S400x64 : FVec Ideal S400x64 .f32)
      (shapeCast S10000x64 x2 shapeCasts_S10000x64_S10000x64 : FVec Ideal S10000x64 .f32) r q)).trans ?_
  rw [shapeCast_self, shapeCast_self]

/-! ## From blocks to arrays -/

theorem hz : (![0, 0] : Fin 2 → Nat) = fun _ => 0 := funext fun a => by fin_cases a <;> rfl

variable (V : (c : Dev nD) → (b : Ref sig .tc) → Buf (Elt Ideal) ((c : Thread nD τ).loc b))

/-! ### Region 0: one point, whole arrays -/

theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A whole-array window's block is the array. -/
theorem iblk0_0 (c : Dev nD) (t : Fin cfg0.N) : iblk0 V c 0 t = V c main_arg0 := by
  obtain ⟨e0, e1, e2, e3, e4, e5, e6, e7⟩ := idx_facts0 t
  funext y
  show V c main_arg0 (((cfg0.win 0).blk t).view.emb y) = V c main_arg0 y
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega
theorem iblk0_1 (c : Dev nD) (t : Fin cfg0.N) : iblk0 V c 1 t = V c main_arg2 := by
  obtain ⟨e0, e1, e2, e3, e4, e5, e6, e7⟩ := idx_facts0 t
  funext y
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega
theorem iblk0_2 (c : Dev nD) (t : Fin cfg0.N) : iblk0 V c 2 t = V c main_arg3 := by
  obtain ⟨e0, e1, e2, e3, e4, e5, e6, e7⟩ := idx_facts0 t
  funext y
  show V c main_arg3 (((cfg0.win 2).blk t).view.emb y) = V c main_arg3 y
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- What region 0's one point writes back is the product X · (W₁ · W₂), whole. -/
theorem flushed0_eq (c : Dev nD) (t : Fin cfg0.N) :
    (dat0 V c).flushed 3 t = ((cfg0.win 3).blk t).view.read (Elt Ideal)
      (prod (n := 10000) (K := 128) (d := 64) (V c main_arg0) (prod (n := 128) (K := 128) (d := 64) (V c main_arg2) (V c main_arg3))) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S128x64) hz]
  rw [pay0_eq, iblk0_0, iblk0_1, iblk0_2]
  obtain ⟨e0, e1, e2, e3, e4, e5, e6, e7⟩ := idx_facts0 t
  funext y
  show prod (n := 10000) (K := 128) (d := 64) (V c main_arg0) (prod (n := 128) (K := 128) (d := 64) (V c main_arg2) (V c main_arg3)) y
    = prod (n := 10000) (K := 128) (d := 64) (V c main_arg0) (prod (n := 128) (K := 128) (d := 64) (V c main_arg2) (V c main_arg3)) (((cfg0.win 3).blk t).view.emb y)
  refine congrArg _ (Eq.symm ?_)
  funext a; apply Fin.ext
  match a with
  | ⟨0, _⟩ => show win0_3.index t (0 : Fin 2) * 10000 + 1 * (y 0).val = (y 0).val; omega
  | ⟨1, _⟩ => show win0_3.index t (1 : Fin 2) * 64 + 1 * (y 1).val = (y 1).val; omega

theorem mem_blk0 (t : Fin cfg0.N) (i : S10000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

theorem cover0 (i : S10000x64.Idx) : ∃ t : Fin cfg0.N, (cfg0.win 3).flush t = true ∧ i ∈ ((cfg0.win 3).blk t).view.set := by
  have hi0 : (i 0).val < 10000 := idx2_lt0 i
  have hi1 : (i 1).val < 64 := idx2_lt1 i
  obtain ⟨e0, e1, e2, e3, e4, e5, e6, e7⟩ := idx_facts0 t0_0
  refine ⟨t0_0, flush0_3 t0_0, ?_⟩
  rw [mem_blk0]
  intro a
  match a with
  | ⟨0, _⟩ => show win0_3.index t0_0 (0 : Fin 2) * 10000 ≤ (i 0).val ∧ (i 0).val < win0_3.index t0_0 (0 : Fin 2) * 10000 + 10000; omega
  | ⟨1, _⟩ => show win0_3.index t0_0 (1 : Fin 2) * 64 ≤ (i 1).val ∧ (i 1).val < win0_3.index t0_0 (1 : Fin 2) * 64 + 64; omega

/-- Region 0 leaves X · (W₁ · W₂) in its output array. -/
theorem final0 (c : Dev nD) : (dat0 V c).arrAt 3 cfg0.N
    = prod (n := 10000) (K := 128) (d := 64) (V c main_arg0) (prod (n := 128) (K := 128) (d := 64) (V c main_arg2) (V c main_arg3)) :=
  (dat0 V c).arrAt_eq_of_cover 3 _ (fun t _ => flushed0_eq V c t) cover0

/-! ### Region 1: 25 blocks of 400 rows -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of A · Y, with A the adjacency and Y the region's other input array. -/
theorem flushed1_eq (c : Dev nD) (t : Fin cfg1.N) :
    (dat1 V c).flushed 2 t = ((cfg1.win 2).blk t).view.read (Elt Ideal)
      (prod (n := 10000) (K := 10000) (d := 64) (V c main_arg1) (V c main_v0)) := by
  show (cfg1.win 2).cut (grid1.coords t) ((dat1 V c).after 2 t) = _
  rw [after1_2]
  unfold out1_2
  rw [View.canon_unit_zero hz]
  simp only [View.ld_unit_zero (S := S400x10000) hz, View.ld_unit_zero (S := S10000x64) hz]
  obtain ⟨e0, e1, e2, e3, e4, e5⟩ := idx_facts1 t
  have hN : t.val < 25 := lt_of_lt_of_eq t.isLt (show cfg1.N = 25 from N_1)
  funext y
  obtain ⟨r, q, rfl⟩ : ∃ (r : Fin 400) (q : Fin 64), y = ix2 r q := ⟨y 0, y 1, eq_ix2 y⟩
  refine (pay1_apply (iblk1 V c 0 t) (iblk1 V c 1 t) r q).trans ?_
  have hout : ((cfg1.win 2).blk t).view.emb (ix2 r q) = ix2 (⟨t.val * 400 + r.val, by omega⟩ : Fin 10000) q := by
    funext a; apply Fin.ext
    match a with
    | ⟨0, _⟩ => show win1_2.index t (0 : Fin 2) * 400 + 1 * r.val = t.val * 400 + r.val; omega
    | ⟨1, _⟩ => show win1_2.index t (1 : Fin 2) * 64 + 1 * q.val = q.val; omega
  show _ = prod (n := 10000) (K := 10000) (d := 64) (V c main_arg1) (V c main_v0) (((cfg1.win 2).blk t).view.emb (ix2 r q))
  rw [hout, prod_apply]
  refine Finset.sum_congr rfl fun k _ => ?_
  have h0 : iblk1 V c 0 t (ix2 r k) = V c main_arg1 (ix2 (⟨t.val * 400 + r.val, by omega⟩ : Fin 10000) k) := by
    show V c main_arg1 (((cfg1.win 0).blk t).view.emb (ix2 r k)) = _
    refine congrArg _ ?_
    funext a; apply Fin.ext
    match a with
    | ⟨0, _⟩ => show win1_0.index t (0 : Fin 2) * 400 + 1 * r.val = t.val * 400 + r.val; omega
    | ⟨1, _⟩ => show win1_0.index t (1 : Fin 2) * 10000 + 1 * k.val = k.val; omega
  have h1 : iblk1 V c 1 t (ix2 k q) = V c main_v0 (ix2 k q) := by
    show V c main_v0 (((cfg1.win 1).blk t).view.emb (ix2 k q)) = _
    refine congrArg _ ?_
    funext a; apply Fin.ext
    match a with
    | ⟨0, _⟩ => show win1_1.index t (0 : Fin 2) * 10000 + 1 * k.val = k.val; omega
    | ⟨1, _⟩ => show win1_1.index t (1 : Fin 2) * 64 + 1 * q.val = q.val; omega
  rw [h0, h1]

theorem mem_blk1 (t : Fin cfg1.N) (i : S10000x64.Idx) :
    i ∈ ((cfg1.win 2).blk t).view.set ↔ ∀ a : Fin 2, win1_2.index t a * S400x64.size a ≤ (i a).val ∧ (i a).val < win1_2.index t a * S400x64.size a + S400x64.size a := by
  show i ∈ ((View.whole main_v1).slice (win1_2.rect t)).set ↔ _
  rw [View.set_slice_whole, Rect.mem_set_unit]
  exact Iff.rfl

/-- Row i lies in the block of point i / 400. -/
theorem cover1 (i : S10000x64.Idx) : ∃ t : Fin cfg1.N, (cfg1.win 2).flush t = true ∧ i ∈ ((cfg1.win 2).blk t).view.set := by
  have hi0 : (i 0).val < 10000 := idx2_lt0 i
  have hi1 : (i 1).val < 64 := idx2_lt1 i
  have hN : cfg1.N = 25 := N_1
  obtain ⟨t, ht⟩ : ∃ t : Fin cfg1.N, t.val = (i 0).val / 400 := ⟨⟨(i 0).val / 400, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 64 ≤ (i 1).val ∧ (i 1).val < win1_2.index t (1 : Fin 2) * 64 + 64; omega

/-- Region 1 leaves A · Y in its output array. -/
theorem final1 (c : Dev nD) : (dat1 V c).arrAt 2 cfg1.N
    = prod (n := 10000) (K := 10000) (d := 64) (V c main_arg1) (V c main_v0) :=
  (dat1 V c).arrAt_eq_of_cover 2 _ (fun t _ => flushed1_eq V c t) cover1

/-! ### Region 2: 25 blocks of 400 rows -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of A · Y, with A the adjacency and Y the region's other input array. -/
theorem flushed2_eq (c : Dev nD) (t : Fin cfg2.N) :
    (dat2 V c).flushed 2 t = ((cfg2.win 2).blk t).view.read (Elt Ideal)
      (prod (n := 10000) (K := 10000) (d := 64) (V c main_arg1) (V c main_v1)) := by
  show (cfg2.win 2).cut (grid2.coords t) ((dat2 V c).after 2 t) = _
  rw [after2_2]
  unfold out2_2
  rw [View.canon_unit_zero hz]
  simp only [View.ld_unit_zero (S := S400x10000) hz, View.ld_unit_zero (S := S10000x64) hz]
  obtain ⟨e0, e1, e2, e3, e4, e5⟩ := idx_facts2 t
  have hN : t.val < 25 := lt_of_lt_of_eq t.isLt (show cfg2.N = 25 from N_2)
  funext y
  obtain ⟨r, q, rfl⟩ : ∃ (r : Fin 400) (q : Fin 64), y = ix2 r q := ⟨y 0, y 1, eq_ix2 y⟩
  refine (pay2_apply (iblk2 V c 0 t) (iblk2 V c 1 t) r q).trans ?_
  have hout : ((cfg2.win 2).blk t).view.emb (ix2 r q) = ix2 (⟨t.val * 400 + r.val, by omega⟩ : Fin 10000) q := by
    funext a; apply Fin.ext
    match a with
    | ⟨0, _⟩ => show win2_2.index t (0 : Fin 2) * 400 + 1 * r.val = t.val * 400 + r.val; omega
    | ⟨1, _⟩ => show win2_2.index t (1 : Fin 2) * 64 + 1 * q.val = q.val; omega
  show _ = prod (n := 10000) (K := 10000) (d := 64) (V c main_arg1) (V c main_v1) (((cfg2.win 2).blk t).view.emb (ix2 r q))
  rw [hout, prod_apply]
  refine Finset.sum_congr rfl fun k _ => ?_
  have h0 : iblk2 V c 0 t (ix2 r k) = V c main_arg1 (ix2 (⟨t.val * 400 + r.val, by omega⟩ : Fin 10000) k) := by
    show V c main_arg1 (((cfg2.win 0).blk t).view.emb (ix2 r k)) = _
    refine congrArg _ ?_
    funext a; apply Fin.ext
    match a with
    | ⟨0, _⟩ => show win2_0.index t (0 : Fin 2) * 400 + 1 * r.val = t.val * 400 + r.val; omega
    | ⟨1, _⟩ => show win2_0.index t (1 : Fin 2) * 10000 + 1 * k.val = k.val; omega
  have h1 : iblk2 V c 1 t (ix2 k q) = V c main_v1 (ix2 k q) := by
    show V c main_v1 (((cfg2.win 1).blk t).view.emb (ix2 k q)) = _
    refine congrArg _ ?_
    funext a; apply Fin.ext
    match a with
    | ⟨0, _⟩ => show win2_1.index t (0 : Fin 2) * 10000 + 1 * k.val = k.val; omega
    | ⟨1, _⟩ => show win2_1.index t (1 : Fin 2) * 64 + 1 * q.val = q.val; omega
  rw [h0, h1]

theorem mem_blk2 (t : Fin cfg2.N) (i : S10000x64.Idx) :
    i ∈ ((cfg2.win 2).blk t).view.set ↔ ∀ a : Fin 2, win2_2.index t a * S400x64.size a ≤ (i a).val ∧ (i a).val < win2_2.index t a * S400x64.size a + S400x64.size a := by
  show i ∈ ((View.whole main_v2).slice (win2_2.rect t)).set ↔ _
  rw [View.set_slice_whole, Rect.mem_set_unit]
  exact Iff.rfl

/-- Row i lies in the block of point i / 400. -/
theorem cover2 (i : S10000x64.Idx) : ∃ t : Fin cfg2.N, (cfg2.win 2).flush t = true ∧ i ∈ ((cfg2.win 2).blk t).view.set := by
  have hi0 : (i 0).val < 10000 := idx2_lt0 i
  have hi1 : (i 1).val < 64 := idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 64 ≤ (i 1).val ∧ (i 1).val < win2_2.index t (1 : Fin 2) * 64 + 64; omega

/-- Region 2 leaves A · Y in its output array. -/
theorem final2 (c : Dev nD) : (dat2 V c).arrAt 2 cfg2.N
    = prod (n := 10000) (K := 10000) (d := 64) (V c main_arg1) (V c main_v1) :=
  (dat2 V c).arrAt_eq_of_cover 2 _ (fun t _ => flushed2_eq V c t) cover2

/-! ### Region 3: 25 blocks of 400 rows of the decoded matrix -/

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the tanh form of the decoder applied to the encoding the region finds. -/
theorem flushed3_eq (c : Dev nD) (t : Fin cfg3.N) :
    (dat3 V c).flushed 2 t = ((cfg3.win 2).blk t).view.read (Elt Ideal) (decoderTanh (n := 10000) (d := 64) (V c main_v2)) := by
  show (cfg3.win 2).cut (grid3.coords t) ((dat3 V c).after 2 t) = _
  rw [after3_2]
  unfold out3_2
  rw [View.canon_unit_zero hz]
  simp only [View.ld_unit_zero (S := S400x64) hz, View.ld_unit_zero (S := S10000x64) hz]
  obtain ⟨e0, e1, e2, e3, e4, e5⟩ := idx_facts3 t
  have hN : t.val < 25 := lt_of_lt_of_eq t.isLt (show cfg3.N = 25 from N_3)
  funext y
  obtain ⟨r, q, rfl⟩ : ∃ (r : Fin 400) (q : Fin 10000), y = ix2 r q := ⟨y 0, y 1, eq_ix2 y⟩
  refine (pay3_apply (iblk3 V c 0 t) (iblk3 V c 1 t) r q).trans ?_
  have hout : ((cfg3.win 2).blk t).view.emb (ix2 r q) = ix2 (⟨t.val * 400 + r.val, by omega⟩ : Fin 10000) q := by
    funext a; apply Fin.ext
    match a with
    | ⟨0, _⟩ => show win3_2.index t (0 : Fin 2) * 400 + 1 * r.val = t.val * 400 + r.val; omega
    | ⟨1, _⟩ => show win3_2.index t (1 : Fin 2) * 10000 + 1 * q.val = q.val; omega
  show _ = decoderTanh (n := 10000) (d := 64) (V c main_v2) (((cfg3.win 2).blk t).view.emb (ix2 r q))
  rw [hout]
  show _ = halfWord * (Ideal.tanh (halfWord * gram (n := 10000) (d := 64) (V c main_v2) (ix2 (⟨t.val * 400 + r.val, by omega⟩ : Fin 10000) q)) + oneWord)
  rw [gram_apply]
  refine congrArg (fun z : EReal => halfWord * (Ideal.tanh (halfWord * z) + oneWord)) ?_
  refine Finset.sum_congr rfl fun k _ => ?_
  have h0 : iblk3 V c 0 t (ix2 r k) = V c main_v2 (ix2 (⟨t.val * 400 + r.val, by omega⟩ : Fin 10000) k) := by
    show V c main_v2 (((cfg3.win 0).blk t).view.emb (ix2 r k)) = _
    refine congrArg _ ?_
    funext a; apply Fin.ext
    match a with
    | ⟨0, _⟩ => show win3_0.index t (0 : Fin 2) * 400 + 1 * r.val = t.val * 400 + r.val; omega
    | ⟨1, _⟩ => show win3_0.index t (1 : Fin 2) * 64 + 1 * k.val = k.val; omega
  have h1 : iblk3 V c 1 t (ix2 q k) = V c main_v2 (ix2 q k) := by
    show V c main_v2 (((cfg3.win 1).blk t).view.emb (ix2 q k)) = _
    refine congrArg _ ?_
    funext a; apply Fin.ext
    match a with
    | ⟨0, _⟩ => show win3_1.index t (0 : Fin 2) * 10000 + 1 * q.val = q.val; omega
    | ⟨1, _⟩ => show win3_1.index t (1 : Fin 2) * 64 + 1 * k.val = k.val; omega
  rw [h0, h1]

theorem mem_blk3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v3).slice (win3_2.rect t)).set ↔ _
  rw [View.set_slice_whole, Rect.mem_set_unit]
  exact Iff.rfl

theorem cover3 (i : S10000x10000.Idx) : ∃ t : Fin cfg3.N, (cfg3.win 2).flush t = true ∧ i ∈ ((cfg3.win 2).blk t).view.set := by
  have hi0 : (i 0).val < 10000 := idx2_lt0 i
  have hi1 : (i 1).val < 10000 := idx2_lt1 i
  have hN : cfg3.N = 25 := N_3
  obtain ⟨t, ht⟩ : ∃ t : Fin cfg3.N, t.val = (i 0).val / 400 := ⟨⟨(i 0).val / 400, by rw [hN]; omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 10000 ≤ (i 1).val ∧ (i 1).val < win3_2.index t (1 : Fin 2) * 10000 + 10000; omega

/-- Region 3 leaves the tanh form of the decoder of the encoding it finds in its output array. -/
theorem final3 (c : Dev nD) : (dat3 V c).arrAt 2 cfg3.N = decoderTanh (n := 10000) (d := 64) (V c main_v2) :=
  (dat3 V c).arrAt_eq_of_cover 2 _ (fun t _ => flushed3_eq V c t) cover3

/-! ## The two results, chained through the regions -/

section Chain

variable (m : (ℓ : Loc nD τ sig) → Buf (Elt Ideal) ℓ) (ρ : Dev nD → PrngReg)

/-- The encoding as region 2 leaves it: A · (A · (X · (W₁ · W₂))) of the launch contents. -/
theorem encoding_value (c : Dev nD) : (dat2 (VC m ρ) c).arrAt 2 cfg2.N
    = encodingFolded (m ((c : Thread nD τ).loc main_arg0)) (m ((c : Thread nD τ).loc main_arg1)) (m ((c : Thread nD τ).loc main_arg2)) (m ((c : Thread nD τ).loc main_arg3)) := by
  have hB0 : VB m ρ c main_v0 = prod (n := 10000) (K := 128) (d := 64) (m ((c : Thread nD τ).loc main_arg0))
      (prod (n := 128) (K := 128) (d := 64) (m ((c : Thread nD τ).loc main_arg2)) (m ((c : Thread nD τ).loc main_arg3))) :=
    (W1_arr m ρ c 3).trans (final0 (VA m ρ) c)
  have hB1 : VB m ρ c main_arg1 = m ((c : Thread nD τ).loc main_arg1) := W1_of_ne m ρ c main_arg1 (by decide)
  have hC1 : VC m ρ c main_arg1 = m ((c : Thread nD τ).loc main_arg1) := W2_main_arg1 m ρ c
  have hCv : VC m ρ c main_v1 = prod (n := 10000) (K := 10000) (d := 64) (VB m ρ c main_arg1) (VB m ρ c main_v0) :=
    (W2_arr m ρ c 2).trans (final1 (VB m ρ) c)
  rw [final2, hCv, hC1, hB1, hB0]
  rfl

/-- The decoded matrix as region 3 leaves it: the tanh form of the decoder of that encoding. -/
theorem decoded_value (c : Dev nD) : (dat3 (VD m ρ) c).arrAt 2 cfg3.N
    = decoderTanh (n := 10000) (d := 64) (encodingFolded (m ((c : Thread nD τ).loc main_arg0)) (m ((c : Thread nD τ).loc main_arg1)) (m ((c : Thread nD τ).loc main_arg2)) (m ((c : Thread nD τ).loc main_arg3))) := by
  have hD : VD m ρ c main_v2 = (dat2 (VC m ρ) c).arrAt 2 cfg2.N := W3_arr m ρ c 2
  rw [final3, hD, encoding_value]

/-- The idealized kernel's run with its two results named. -/
theorem value_run : θ_run defs (onTc (τ := τ) (main (F := Ideal))) ⟨m, fun _ => 0, ρ⟩ (fun r => ∀ c : Dev nD,
      r.2.mem ((c.tc : Thread nD τ).loc main_v2)
        = encodingFolded (m ((c : Thread nD τ).loc main_arg0)) (m ((c : Thread nD τ).loc main_arg1)) (m ((c : Thread nD τ).loc main_arg2)) (m ((c : Thread nD τ).loc main_arg3))
      ∧ r.2.mem ((c.tc : Thread nD τ).loc main_v3)
        = decoderTanh (n := 10000) (d := 64) (encodingFolded (m ((c : Thread nD τ).loc main_arg0)) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (encoding_value m ρ c), (h c).2.1.trans (decoded_value m ρ c), (h c).2.2⟩)
    (run (F := Ideal) m ρ)

end Chain

end Cert.KernelIdeal.Hand

end
-- ==== Proof.ReferenceValue.lean ====
/-
  What the reference program computes, as a function of its four argument arrays over the extended reals.

  Its four matrix products, read entry by entry as sums over the contracted axis, are the products of Spec.lean
  in the order A · ((A · (X · W₁)) · W₂); the product with the transposed encoding is the Gram matrix of the
  encoding's rows; and the remaining pointwise operations are 1 / (1 + exp (−z)) with 1 the float32 word of one.
  Nothing here needs the entries to be finite.
-/
import proofs.«121453_g80814104642078_cont_9to1_m_63_4_alg».proof.Proof.Spec
import proofs.«121453_g80814104642078_cont_9to1_m_63_4_alg».proof.Proof.Gen.ReferenceIdeal.Run
import proofs.«121453_g80814104642078_cont_9to1_m_63_4_alg».proof.Proof.Gen.ReferenceIdeal.Read

noncomputable section

namespace Cert.GraphAutoencoder

open Cert.ReferenceIdeal Cert.ReferenceIdeal.Gen Cert.ReferenceIdeal.Read Idealize.ShloMosaic Idealize.ShloMosaic.ValueIdx
  Idealize.ShloMosaic.StableHlo

/-- The index functions of the generated reading of each product, at an index given by its coordinates:
    the left operand is read at (row, k), the right at (k, column); the transpose at (c, j) reads (j, c). -/
theorem lidx_v0 (p : Fin 10000) (q : Fin 128) (k : Fin 128) : lidx_main_v0 (ix2 p q) k = ix2 p k :=
  funext fun a => by match a with | ⟨0, _⟩ => rfl | ⟨1, _⟩ => rfl
theorem ridx_v0 (p : Fin 10000) (q : Fin 128) (k : Fin 128) : ridx_main_v0 (ix2 p q) k = ix2 k q :=
  funext fun a => by match a with | ⟨0, _⟩ => rfl | ⟨1, _⟩ => rfl
theorem lidx_v1 (p : Fin 10000) (q : Fin 128) (k : Fin 10000) : lidx_main_v1 (ix2 p q) k = ix2 p k :=
  funext fun a => by match a with | ⟨0, _⟩ => rfl | ⟨1, _⟩ => rfl
theorem ridx_v1 (p : Fin 10000) (q : Fin 128) (k : Fin 10000) : ridx_main_v1 (ix2 p q) k = ix2 k q :=
  funext fun a => by match a with | ⟨0, _⟩ => rfl | ⟨1, _⟩ => rfl
theorem lidx_v2 (p : Fin 10000) (q : Fin 64) (k : Fin 128) : lidx_main_v2 (ix2 p q) k = ix2 p k :=
  funext fun a => by match a with | ⟨0, _⟩ => rfl | ⟨1, _⟩ => rfl
theorem ridx_v2 (p : Fin 10000) (q : Fin 64) (k : Fin 128) : ridx_main_v2 (ix2 p q) k = ix2 k q :=
  funext fun a => by match a with | ⟨0, _⟩ => rfl | ⟨1, _⟩ => rfl
theorem lidx_v3 (p : Fin 10000) (q : Fin 64) (k : Fin 10000) : lidx_main_v3 (ix2 p q) k = ix2 p k :=
  funext fun a => by match a with | ⟨0, _⟩ => rfl | ⟨1, _⟩ => rfl
theorem ridx_v3 (p : Fin 10000) (q : Fin 64) (k : Fin 10000) : ridx_main_v3 (ix2 p q) k = ix2 k q :=
  funext fun a => by match a with | ⟨0, _⟩ => rfl | ⟨1, _⟩ => rfl
theorem lidx_v5 (p q : Fin 10000) (k : Fin 64) : lidx_main_v5 (ix2 p q) k = ix2 p k :=
  funext fun a => by match a with | ⟨0, _⟩ => rfl | ⟨1, _⟩ => rfl
theorem ridx_v5 (p q : Fin 10000) (k : Fin 64) : ridx_main_v5 (ix2 p q) k = ix2 k q :=
  funext fun a => by match a with | ⟨0, _⟩ => rfl | ⟨1, _⟩ => rfl
theorem idx_v4 (k : Fin 64) (q : Fin 10000) : idx_main_v4 (ix2 k q) = ix2 q k :=
  funext fun a => by match a with | ⟨0, _⟩ => rfl | ⟨1, _⟩ => rfl

/-- The first stage, X · W₁. -/
theorem ref_stage0 (a0 : (⟨S10000x128, .f32⟩ : BufTy).Contents (Elt Ideal)) (a2 : (⟨S128x128, .f32⟩ : BufTy).Contents (Elt Ideal)) :
    val_main_v0 (F := Ideal) a0 a2 = prod (n := 10000) (K := 128) (d := 128) a0 a2 := by
  funext i
  obtain ⟨p, q, rfl⟩ : ∃ (p : Fin 10000) (q : Fin 128), i = ix2 p q := ⟨i 0, i 1, eq_ix2 i⟩
  rw [val_main_v0_apply, prod_apply]
  simp only [lidx_v0, ridx_v0]

/-- The second stage, A · (X · W₁). -/
theorem ref_stage1 (a0 : (⟨S10000x128, .f32⟩ : BufTy).Contents (Elt Ideal)) (a1 : (⟨S10000x10000, .f32⟩ : BufTy).Contents (Elt Ideal))
    (a2 : (⟨S128x128, .f32⟩ : BufTy).Contents (Elt Ideal)) :
    val_main_v1 (F := Ideal) a0 a1 a2 = prod (n := 10000) (K := 10000) (d := 128) a1 (prod (n := 10000) (K := 128) (d := 128) a0 a2) := by
  funext i
  obtain ⟨p, q, rfl⟩ : ∃ (p : Fin 10000) (q : Fin 128), i = ix2 p q := ⟨i 0, i 1, eq_ix2 i⟩
  rw [val_main_v1_apply, ref_stage0, prod_apply]
  simp only [lidx_v1, ridx_v1]

/-- The third stage, (A · (X · W₁)) · W₂. -/
theorem ref_stage2 (a0 : (⟨S10000x128, .f32⟩ : BufTy).Contents (Elt Ideal)) (a1 : (⟨S10000x10000, .f32⟩ : BufTy).Contents (Elt Ideal))
    (a2 : (⟨S128x128, .f32⟩ : BufTy).Contents (Elt Ideal)) (a3 : (⟨S128x64, .f32⟩ : BufTy).Contents (Elt Ideal)) :
    val_main_v2 (F := Ideal) a0 a1 a2 a3
      = prod (n := 10000) (K := 128) (d := 64) (prod (n := 10000) (K := 10000) (d := 128) a1 (prod (n := 10000) (K := 128) (d := 128) a0 a2)) a3 := by
  funext i
  obtain ⟨p, q, rfl⟩ : ∃ (p : Fin 10000) (q : Fin 64), i = ix2 p q := ⟨i 0, i 1, eq_ix2 i⟩
  rw [val_main_v2_apply, ref_stage1, prod_apply]
  simp only [lidx_v2, ridx_v2]

/-- The encoding the reference returns is A · ((A · (X · W₁)) · W₂). -/
theorem ref_stage3 (a0 : (⟨S10000x128, .f32⟩ : BufTy).Contents (Elt Ideal)) (a1 : (⟨S10000x10000, .f32⟩ : BufTy).Contents (Elt Ideal))
    (a2 : (⟨S128x128, .f32⟩ : BufTy).Contents (Elt Ideal)) (a3 : (⟨S128x64, .f32⟩ : BufTy).Contents (Elt Ideal)) :
    val_main_v3 (F := Ideal) a0 a1 a2 a3 = encodingLayered a0 a1 a2 a3 := by
  funext i
  obtain ⟨p, q, rfl⟩ : ∃ (p : Fin 10000) (q : Fin 64), i = ix2 p q := ⟨i 0, i 1, eq_ix2 i⟩
  unfold encodingLayered
  rw [val_main_v3_apply, ref_stage2, prod_apply]
  simp only [lidx_v3, ridx_v3]

/-- The product of the encoding with its transpose is the Gram matrix of the encoding's rows:
    the transpose read at (c, j) is the encoding at (j, c). -/
theorem ref_stage5 (a0 : (⟨S10000x128, .f32⟩ : BufTy).Contents (Elt Ideal)) (a1 : (⟨S10000x10000, .f32⟩ : BufTy).Contents (Elt Ideal))
    (a2 : (⟨S128x128, .f32⟩ : BufTy).Contents (Elt Ideal)) (a3 : (⟨S128x64, .f32⟩ : BufTy).Contents (Elt Ideal)) :
    val_main_v5 (F := Ideal) a0 a1 a2 a3 = gram (n := 10000) (d := 64) (encodingLayered a0 a1 a2 a3) := by
  funext i
  obtain ⟨p, q, rfl⟩ : ∃ (p : Fin 10000) (q : Fin 10000), i = ix2 p q := ⟨i 0, i 1, eq_ix2 i⟩
  rw [val_main_v5_apply, gram_apply]
  simp only [val_main_v4_apply, ref_stage3, lidx_v5, ridx_v5, idx_v4]

/-- The reference's first result is the layered encoding of its arguments. -/
theorem ref_encoding (a0 : FVec Ideal S10000x128 .f32) (a1 : FVec Ideal S10000x10000 .f32)
    (a2 : FVec Ideal S128x128 .f32) (a3 : FVec Ideal S128x64 .f32) :
    Host.dotGeneral (F := Ideal) dot_S10000x10000_S10000x64_S10000x64_1_0_0_1_n_n none (a1) (Host.dotGeneral dot_S10000x128_S128x64_S10000x64_1_0_0_1_n_n none (Host.dotGeneral dot_S10000x10000_S10000x128_S10000x128_1_0_0_1_n_n none (a1) (Host.dotGeneral dot_S10000x128_S128x128_S10000x128_1_0_0_1_n_n none (a0) (a2))) (a3))
      = encodingLayered a0 a1 a2 a3 :=
  (val_main_v3_eq (F := Ideal) a0 a1 a2 a3).trans (ref_stage3 a0 a1 a2 a3)

/-- The reference's second result is the logistic function of the Gram matrix of the layered encoding. -/
theorem ref_decoder_stage (a0 : (⟨S10000x128, .f32⟩ : BufTy).Contents (Elt Ideal)) (a1 : (⟨S10000x10000, .f32⟩ : BufTy).Contents (Elt Ideal))
    (a2 : (⟨S128x128, .f32⟩ : BufTy).Contents (Elt Ideal)) (a3 : (⟨S128x64, .f32⟩ : BufTy).Contents (Elt Ideal)) :
    val_main_v11 (F := Ideal) a0 a1 a2 a3 = decoderLogistic (n := 10000) (d := 64) (encodingLayered a0 a1 a2 a3) := by
  funext i
  rw [val_main_v11_apply, val_main_v10_apply, val_main_cst_0_apply, val_main_v9_apply, val_main_v8_apply, val_main_cst_apply,
    val_main_v7_apply, val_main_v6_apply, ref_stage5]
  simp only [Ideal.hostDivf_def, Ideal.hostUnary_exp_def, Ideal.hostNegf_def, Ideal.addf_def, Ideal.ofBits_def]
  rfl

theorem ref_decoder (a0 : FVec Ideal S10000x128 .f32) (a1 : FVec Ideal S10000x10000 .f32)
    (a2 : FVec Ideal S128x128 .f32) (a3 : FVec Ideal S128x64 .f32) :
    Host.divf (F := Ideal) (broadcastInDim S10000x10000 ![] bcast_S_S10000x10000 (constant S_ .f32 0x3F800000#32)) (addf (broadcastInDim S10000x10000 ![] bcast_S_S10000x10000 (constant S_ .f32 0x3F800000#32)) (Host.exp (Host.negf (Host.dotGeneral dot_S10000x64_S64x10000_S10000x10000_1_0_0_1_n_n none (Host.dotGeneral dot_S10000x10000_S10000x64_S10000x64_1_0_0_1_n_n none (a1) (Host.dotGeneral dot_S10000x128_S128x64_S10000x64_1_0_0_1_n_n none (Host.dotGeneral dot_S10000x10000_S10000x128_S10000x128_1_0_0_1_n_n none (a1) (Host.dotGeneral dot_S10000x128_S128x128_S10000x128_1_0_0_1_n_n none (a0) (a2))) (a3))) (transpose S64x10000 [1, 0] (Host.dotGeneral dot_S10000x10000_S10000x64_S10000x64_1_0_0_1_n_n none (a1) (Host.dotGeneral dot_S10000x128_S128x64_S10000x64_1_0_0_1_n_n none (Host.dotGeneral dot_S10000x10000_S10000x128_S10000x128_1_0_0_1_n_n none (a1) (Host.dotGeneral dot_S10000x128_S128x128_S10000x128_1_0_0_1_n_n none (a0) (a2))) (a3))) transposes_S10000x64_S64x10000_1_0)))))
      = decoderLogistic (n := 10000) (d := 64) (encodingLayered a0 a1 a2 a3) :=
  (val_main_v11_eq (F := Ideal) a0 a1 a2 a3).trans (ref_decoder_stage a0 a1 a2 a3)

end Cert.GraphAutoencoder

end
-- ==== Proof.Algebra.lean ====
/-
  Real matrices inside the extended reals, and the two laws that join the two programs' arrangements.

  A matrix of extended reals is REAL when every entry is the coercion of a real number. On real matrices the
  product is the product of real matrices, so it is associative: A · (A · (X · (W₁ · W₂))) and
  A · ((A · (X · W₁)) · W₂) are one matrix. (Over the extended reals as a whole the step that moves a factor
  across a sum fails at the infinities; this is where finiteness of the inputs is used.)
  At a real z the two ways of writing the logistic function agree: ½ · (tanh (½ · z) + 1) = 1 / (1 + exp (−z)),
  because tanh y = (e^y − e^(−y)) / (e^y + e^(−y)) and e^(−z) = (e^(−z/2))².
-/
import proofs.«121453_g80814104642078_cont_9to1_m_63_4_alg».proof.Proof.Spec

noncomputable section

namespace Cert.GraphAutoencoder

open Idealize.ShloMosaic Idealize.ShloMosaic.ValueIdx

/-- A matrix is real when every entry is the coercion of a real number. -/
def IsReal {a b : Nat} (M : Mat a b) : Prop := ∀ i, ∃ r : ℝ, M i = (r : EReal)

/-- The matrix of extended reals whose entries are the coercions of a real matrix's entries. -/
def ofReal {a b : Nat} (l : (⟨2, ![a, b]⟩ : Shape).Idx → ℝ) : Mat a b := fun i => (l i : EReal)

theorem isReal_ofReal {a b : Nat} (l : (⟨2, ![a, b]⟩ : Shape).Idx → ℝ) : IsReal (ofReal l) := fun i => ⟨l i, rfl⟩

/-- A real matrix is the coercion of a matrix of reals. -/
theorem IsReal.exists_ofReal {a b : Nat} {M : Mat a b} (h : IsReal M) : ∃ l, M = ofReal l := by
  choose l hl using h
  exact ⟨l, funext hl⟩

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The product of matrices of reals. -/
def rprod {n K d : Nat} (l : (⟨2, ![n, K]⟩ : Shape).Idx → ℝ) (r : (⟨2, ![K, d]⟩ : Shape).Idx → ℝ) :
    (⟨2, ![n, d]⟩ : Shape).Idx → ℝ :=
  fun j => ∑ k : Fin K, l (ix2 (j 0) k) * r (ix2 k (j 1))

/-- On coercions of real matrices the product is the coercion of the real product. -/
theorem prod_ofReal {n K d : Nat} (l : (⟨2, ![n, K]⟩ : Shape).Idx → ℝ) (r : (⟨2, ![K, d]⟩ : Shape).Idx → ℝ) :
    prod (ofReal l) (ofReal r) = ofReal (rprod l r) := by
  funext j
  show ∑ k : Fin K, (l (ix2 (j 0) k) : EReal) * (r (ix2 k (j 1)) : EReal)
      = ((∑ k : Fin K, l (ix2 (j 0) k) * r (ix2 k (j 1)) : ℝ) : EReal)
  rw [coe_sum]
  simp only [EReal.coe_mul]

/-- The product of real matrices is real. -/
theorem prod_real {n K d : Nat} {L : Mat n K} {R : Mat K d} (hL : IsReal L) (hR : IsReal R) : IsReal (prod L R) := by
  obtain ⟨l, rfl⟩ := hL.exists_ofReal
  obtain ⟨r, rfl⟩ := hR.exists_ofReal
  rw [prod_ofReal]
  exact isReal_ofReal _

/-- The product of matrices of reals is associative: both sides are the double sum of l (i, a) · m (a, b) · r (b, j). -/
theorem rprod_assoc {n K P d : Nat} (l : (⟨2, ![n, K]⟩ : Shape).Idx → ℝ) (m : (⟨2, ![K, P]⟩ : Shape).Idx → ℝ)
    (r : (⟨2, ![P, d]⟩ : Shape).Idx → ℝ) : rprod (rprod l m) r = rprod l (rprod m r) := by
  funext j
  show ∑ b : Fin P, (∑ a : Fin K, l (ix2 (j 0) a) * m (ix2 a b)) * r (ix2 b (j 1))
      = ∑ a : Fin K, l (ix2 (j 0) a) * ∑ b : Fin P, m (ix2 a b) * r (ix2 b (j 1))
  simp only [Finset.sum_mul, Finset.mul_sum]
  rw [Finset.sum_comm]
  exact Finset.sum_congr rfl fun a _ => Finset.sum_congr rfl fun b _ => mul_assoc _ _ _

/-- The product of real matrices is associative. -/
theorem prod_assoc {n K P d : Nat} {L : Mat n K} {M : Mat K P} {R : Mat P d}
    (hL : IsReal L) (hM : IsReal M) (hR : IsReal R) : prod (prod L M) R = prod L (prod M R) := by
  obtain ⟨l, rfl⟩ := hL.exists_ofReal
  obtain ⟨m, rfl⟩ := hM.exists_ofReal
  obtain ⟨r, rfl⟩ := hR.exists_ofReal
  rw [prod_ofReal, prod_ofReal, prod_ofReal, prod_ofReal, rprod_assoc]

/-- The encoding of real arguments, in either grouping, is real. -/
theorem encodingFolded_real {X : Mat 10000 128} {A : Mat 10000 10000} {W₁ : Mat 128 128} {W₂ : Mat 128 64}
    (hX : IsReal X) (hA : IsReal A) (hW₁ : IsReal W₁) (hW₂ : IsReal W₂) : IsReal (encodingFolded X A W₁ W₂) :=
  prod_real hA (prod_real hA (prod_real hX (prod_real hW₁ hW₂)))

theorem encodingLayered_real {X : Mat 10000 128} {A : Mat 10000 10000} {W₁ : Mat 128 128} {W₂ : Mat 128 64}
    (hX : IsReal X) (hA : IsReal A) (hW₁ : IsReal W₁) (hW₂ : IsReal W₂) : IsReal (encodingLayered X A W₁ W₂) :=
  prod_real hA (prod_real (prod_real hA (prod_real hX hW₁)) hW₂)

/-- For real arguments the two groupings of the encoding are one matrix:
    X · (W₁ · W₂) = (X · W₁) · W₂, then A · ((X · W₁) · W₂) = (A · (X · W₁)) · W₂. -/
theorem encoding_eq {X : Mat 10000 128} {A : Mat 10000 10000} {W₁ : Mat 128 128} {W₂ : Mat 128 64}
    (hX : IsReal X) (hA : IsReal A) (hW₁ : IsReal W₁) (hW₂ : IsReal W₂) :
    encodingFolded X A W₁ W₂ = encodingLayered X A W₁ W₂ := by
  unfold encodingFolded encodingLayered
  rw [← prod_assoc hX hW₁ hW₂, ← prod_assoc hA (prod_real hX hW₁) hW₂]

/-- The Gram matrix of a real matrix is real. -/
theorem gram_real {n d : Nat} {E : Mat n d} (hE : IsReal E) : IsReal (gram E) := by
  obtain ⟨e, rfl⟩ := hE.exists_ofReal
  intro j
  refine ⟨∑ c : Fin d, e (ix2 (j 0) c) * e (ix2 (j 1) c), ?_⟩
  rw [coe_sum]
  simp only [EReal.coe_mul]
  rfl

/-- The float32 word 0x3F000000 denotes one half. -/
theorem halfWord_eq : halfWord = ((1 / 2 : ℝ) : EReal) := by
  simp [halfWord, Ideal.ofBits, Ideal.ieee, -EReal.coe_mul]; norm_num

/-- The float32 word 0x3F800000 denotes one. -/
theorem oneWord_eq : oneWord = ((1 : ℝ) : EReal) := by
  simp [oneWord, Ideal.ofBits, Ideal.ieee, -EReal.coe_mul]; norm_num

/-- The logistic function written with tanh: ½ · (tanh (½ · z) + 1) = 1 / (1 + e^(−z)) at every real z. -/
theorem half_tanh_half (z : ℝ) : (1 / 2 : ℝ) * (Real.tanh ((1 / 2) * z) + 1) = 1 * (1 / (1 + Real.exp (-z))) := by
  have hz : Real.exp (-z) = Real.exp (-((1 / 2) * z)) * Real.exp (-((1 / 2) * z)) := by
    rw [← Real.exp_add]; congr 1; ring
  have hinv : Real.exp ((1 / 2) * z) * Real.exp (-((1 / 2) * z)) = 1 := by
    rw [← Real.exp_add, add_neg_cancel, Real.exp_zero]
  have hp := Real.exp_pos ((1 / 2) * z)
  have hn := Real.exp_pos (-((1 / 2) * z))
  rw [Real.tanh_eq_sinh_div_cosh, Real.sinh_eq, Real.cosh_eq, hz]
  generalize Real.exp ((1 / 2) * z) = p at *
  generalize Real.exp (-((1 / 2) * z)) = q at *
  field_simp
  linear_combination (2 * q) * hinv

/-- On a real encoding the two decoders are one matrix. -/
theorem decoder_eq {n d : Nat} {E : Mat n d} (hE : IsReal E) : decoderTanh E = decoderLogistic E := by
  funext j
  obtain ⟨z, hz⟩ := gram_real hE j
  have hne : (1 + Real.exp (-z) : ℝ) ≠ 0 := (add_pos one_pos (Real.exp_pos _)).ne'
  show halfWord * (Ideal.tanh (halfWord * gram E j) + oneWord) = Ideal.div oneWord (oneWord + Ideal.exp (-(gram E j)))
  rw [hz, halfWord_eq, oneWord_eq, ← EReal.coe_mul, Ideal.tanh_coe, ← EReal.coe_add, ← EReal.coe_mul,
    ← EReal.coe_neg, Ideal.exp_coe, ← EReal.coe_add, Ideal.div_coe hne, ← EReal.coe_mul, half_tanh_half]

end Cert.GraphAutoencoder

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.FiniteInputs.lean ====
/-
  Every entry of the four argument arrays is a real number, read back from the precondition.

  The precondition says that a printed predicate of the four arrays is all ones: the conjunction, array by array,
  of "every entry x has |x| < +∞" (an and-reduction over the whole array of the comparison of |x| with the word of +∞).
  A conjunction that is one has both parts one; an and-reduction over all axes that is one has a one at every index;
  and an extended real whose absolute value is below +∞ is the coercion of a real.
-/
import proofs.«121453_g80814104642078_cont_9to1_m_63_4_alg».proof.Defs
import proofs.«121453_g80814104642078_cont_9to1_m_63_4_alg».proof.Proof.Gen.Pre_finite_inputs
import proofs.«121453_g80814104642078_cont_9to1_m_63_4_alg».proof.Proof.Algebra
import proofs.«121453_g80814104642078_cont_9to1_m_63_4_alg».proof.Proof.LibFiniteEReal
import Idealize.ShloMosaic.Lib.ReduceAll
import Idealize.ShloMosaic.Lib.Pipeline.Value

noncomputable section

namespace Cert.GraphAutoencoder

open Idealize.ShloMosaic Idealize.ShloMosaic.ValueIdx Idealize.SL.Sem

/-- The index set of a rank-0 array has one element. -/
instance subsingleton_scalar_idx : Subsingleton (⟨0, ![]⟩ : Shape).Idx := ⟨fun a b => funext fun d => d.elim0⟩

/-- One array's part of the predicate: if the and-reduction over both axes of "|x| is below the word of +∞" is one,
    the array is real. -/
theorem real_of_all_finite {a b : Nat} (hb : (⟨0, ![]⟩ : Shape).BroadcastsInDim (⟨2, ![a, b]⟩ : Shape) (![] : Fin 0 → Fin 2))
    (hr : (⟨2, ![a, b]⟩ : Shape).ReducesTo [0, 1] (⟨0, ![]⟩ : Shape)) (hS : 0 < (⟨0, ![]⟩ : Shape).numel)
    (x : FVec Ideal (⟨2, ![a, b]⟩ : Shape) .f32)
    (e : Host.reduce IntOp.andi
        (cmpf .olt (Host.absf x) (broadcastInDim (⟨2, ![a, b]⟩ : Shape) ![] hb (constant (F := Ideal) (⟨0, ![]⟩ : Shape) .f32 0x7F800000#32)))
        (constantI (⟨0, ![]⟩ : Shape) 1 1#1) hr hS ix0 = 1#1) :
    IsReal (a := a) (b := b) x := by
  intro i
  have hi := Host.reduce_andi_all _ _ hr hS ix0 e i
  refine Cert.Lib.FiniteEReal.real_of_abs_lt (x i) ?_
  have hbc : broadcastInDim (⟨2, ![a, b]⟩ : Shape) ![] hb (constant (F := Ideal) (⟨0, ![]⟩ : Shape) .f32 0x7F800000#32) i
      = FloatOps.ofBits (F := Ideal) .f32 0x7F800000#32 :=
    broadcastInDim_apply _ hb _ i ix0 (fun d => d.elim0)
  have hi' : FloatOps.cmpf (F := Ideal) (φ := .f32) .olt (FloatOps.hostAbsf (F := Ideal) (φ := .f32) (x i))
      (broadcastInDim (⟨2, ![a, b]⟩ : Shape) ![] hb (constant (F := Ideal) (⟨0, ![]⟩ : Shape) .f32 0x7F800000#32) i) = 1#1 := hi
  rw [hbc] at hi'
  exact hi'

/-- The predicate of the precondition is all ones only at four real arrays. -/
theorem real_of_fn [Cert.Pre_finite_inputs.Facts] (a0 : FVec Ideal Cert.Pre_finite_inputs.S10000x128 .f32)
    (a1 : FVec Ideal Cert.Pre_finite_inputs.S10000x10000 .f32) (a2 : FVec Ideal Cert.Pre_finite_inputs.S128x128 .f32)
    (a3 : FVec Ideal Cert.Pre_finite_inputs.S128x64 .f32)
    (h : Cert.Pre_finite_inputs.fn (F := Ideal) a0 a1 a2 a3 = fun _ => 1#1) :
    IsReal (a := 10000) (b := 128) a0 ∧ IsReal (a := 10000) (b := 10000) a1 ∧ IsReal (a := 128) (b := 128) a2
      ∧ IsReal (a := 128) (b := 64) a3 := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all_finite _ _ _ a0 h0', real_of_all_finite _ _ _ a1 h1, real_of_all_finite _ _ _ a2 h2,
    real_of_all_finite _ _ _ a3 h3⟩

/-- Under the precondition, on every device each of the four argument arrays of the kernel is real. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (a := 10000) (b := 128) (m ((c.tc : Thread Cert.KernelIdeal.nD Cert.KernelIdeal.τ).loc Cert.KernelIdeal.main_arg0))
      ∧ IsReal (a := 10000) (b := 10000) (m ((c.tc : Thread Cert.KernelIdeal.nD Cert.KernelIdeal.τ).loc Cert.KernelIdeal.main_arg1))
      ∧ IsReal (a := 128) (b := 128) (m ((c.tc : Thread Cert.KernelIdeal.nD Cert.KernelIdeal.τ).loc Cert.KernelIdeal.main_arg2))
      ∧ IsReal (a := 128) (b := 64) (m ((c.tc : Thread Cert.KernelIdeal.nD Cert.KernelIdeal.τ).loc Cert.KernelIdeal.main_arg3)) :=
  real_of_fn _ _ _ _ (h c)

end Cert.GraphAutoencoder

end
-- ==== Proof.lean ====
/-
  A dense graph autoencoder: features X [10000, 128], adjacency A [10000, 10000], weights W₁ [128, 128], W₂ [128, 64].

  The kernel computes the encoding as A · (A · (X · (W₁ · W₂))) in three kernel regions (the weights multiplied first, then
  two passes over the adjacency 400 rows at a time) and the decoded matrix ½ · (tanh (½ · z) + 1), z the encoding's Gram
  matrix, in a fourth that reads the encoding through two windows at once. The reference computes the encoding layer by
  layer, A · ((A · (X · W₁)) · W₂), and decodes by 1 / (1 + exp (−z)).

  Frames: each program's run (KRun / KIRun at the word-level and the exact instance; the reference's generated run) ends
  with the four arguments as launched. The idealization rewrote nothing, so there is nothing to preserve.
  Values at the exact instance: the kernel's two result arrays are the folded encoding and its tanh-form decoding
  (KIValue), the reference's the layered encoding and its logistic decoding (ReferenceValue). Every input entry is a real
  number under the precondition (FiniteInputs); for real matrices the two groupings of the product agree by associativity,
  the encoding is real, and ½ · (tanh (z / 2) + 1) = 1 / (1 + exp (−z)) at every real z (Algebra).
-/
import proofs.«121453_g80814104642078_cont_9to1_m_63_4_alg».proof.Defs
import proofs.«121453_g80814104642078_cont_9to1_m_63_4_alg».proof.Proof.Gen.Kernel
import proofs.«121453_g80814104642078_cont_9to1_m_63_4_alg».proof.Proof.Gen.KernelIdeal
import proofs.«121453_g80814104642078_cont_9to1_m_63_4_alg».proof.Proof.Gen.ReferenceIdeal
import proofs.«121453_g80814104642078_cont_9to1_m_63_4_alg».proof.Proof.Gen.ReferenceIdeal.Run
import proofs.«121453_g80814104642078_cont_9to1_m_63_4_alg».proof.Proof.Gen.ReferenceIdeal.Read
import proofs.«121453_g80814104642078_cont_9to1_m_63_4_alg».proof.Proof.Gen.Pre_finite_inputs
import proofs.«121453_g80814104642078_cont_9to1_m_63_4_alg».proof.Proof.KRun
import proofs.«121453_g80814104642078_cont_9to1_m_63_4_alg».proof.Proof.KIValue
import proofs.«121453_g80814104642078_cont_9to1_m_63_4_alg».proof.Proof.ReferenceValue
import proofs.«121453_g80814104642078_cont_9to1_m_63_4_alg».proof.Proof.Algebra
import proofs.«121453_g80814104642078_cont_9to1_m_63_4_alg».proof.Proof.FiniteInputs
import Idealize.ShloMosaic.Adequacy
import Idealize.ShloMosaic.Init

noncomputable section

namespace Cert.Proof

open Idealize.ShloMosaic Idealize.ShloMosaic.TcCoe Idealize.SL.Sem Cert.GraphAutoencoder

/-- The word-level kernel runs to the end and leaves its arguments as launched. -/
theorem frame_kernel : Cert.frame_Kernel := fun m ρ _ =>
  (θ_run Cert.Kernel.defs _ _).mono (fun _ h c => (h c).2.2) (Cert.Kernel.Hand.run (F := Bits) m ρ)

/-- So does the kernel read at the exact instance. -/
theorem frame_kernelIdeal : Cert.frame_KernelIdeal := fun m ρ _ =>
  (θ_run Cert.KernelIdeal.defs _ _).mono (fun _ h c => (h c).2.2) (Cert.KernelIdeal.Hand.run (F := Ideal) m ρ)

/-- The reference is a line of host operations: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the four arguments, all entries real: the kernel ends at the folded encoding and its tanh-form
    decoding, the reference at the layered encoding and its logistic decoding, and these are the same two arrays. -/
theorem algebraic : Cert.algebraic_KernelIdeal_ReferenceIdeal := by
  intro m ρ m' ρ' hpre hagree
  refine ⟨_, _, Cert.KernelIdeal.Hand.value_run m ρ, ?_⟩
  refine (θ_run Cert.ReferenceIdeal.defs _ _).mono (fun _ h c => ?_) (Cert.ReferenceIdeal.Value.run (F := Ideal) m' ρ')
  obtain ⟨h0, h1, h2, h3⟩ := real_of_pre m hpre c
  obtain ⟨a0, a1, a2, a3⟩ := hagree c
  refine ⟨(h c).1.trans ((ref_encoding _ _ _ _).trans ?_), (h c).2.1.trans ((ref_decoder _ _ _ _).trans ?_), (h c).2.2⟩
  · rw [a0, a1, a2, a3]
    exact (encoding_eq h0 h1 h2 h3).symm
  · rw [a0, a1, a2, a3, ← encoding_eq h0 h1 h2 h3]
    exact (decoder_eq (encodingFolded_real h0 h1 h2 h3)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
